-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128x256 : Shape := ⟨3, ![1024, 128, 256]⟩
abbrev S128 : Shape := ⟨1, ![128]⟩
abbrev S256x256 : Shape := ⟨2, ![256, 256]⟩
abbrev S256 : Shape := ⟨1, ![256]⟩
abbrev S1x768 : Shape := ⟨2, ![1, 768]⟩
abbrev S1 : Shape := ⟨1, ![1]⟩
abbrev S_ : Shape := ⟨0, ![]⟩

class Facts : Prop where
  bcast_S_S1024x128x256 : S_.BroadcastsInDim S1024x128x256 (![] : Fin 0 → Fin S1024x128x256.rank)
  reducesTo_S1024x128x256_S_d0_1_2 : S1024x128x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1x768 : S_.BroadcastsInDim S1x768 (![] : Fin 0 → Fin S1x768.rank)
  reducesTo_S1x768_S_d0_1 : S1x768.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S1x768 .f32) (main_arg13 : FVec F S1 .f32) (main_arg14 : FVec F S1x768 .f32) (main_arg15 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1x768 .f32 := Host.absf main_arg12
  let main_cst_20 : FVec F S_ .f32 := constant S_ .f32 0x7F800000#32
  let main_v55 : FVec F S1x768 .f32 := broadcastInDim S1x768 ![] bcast_S_S1x768 main_cst_20
  let main_v56 : IVec S1x768 1 := cmpf .olt main_v54 main_v55
  let main_c_21 : IVec S_ 1 := constantI S_ 1 1#1
  let main_v57 : IVec S_ 1 := (fun x v => Host.reduce IntOp.andi x v reducesTo_S1x768_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1x768 .f32 := Host.absf main_arg14
  let main_cst_24 : FVec F S_ .f32 := constant S_ .f32 0x7F800000#32
  let main_v65 : FVec F S1x768 .f32 := broadcastInDim S1x768 ![] bcast_S_S1x768 main_cst_24
  let main_v66 : IVec S1x768 1 := cmpf .olt main_v64 main_v65
  let main_c_25 : IVec S_ 1 := constantI S_ 1 1#1
  let main_v67 : IVec S_ 1 := (fun x v => Host.reduce IntOp.andi x v reducesTo_S1x768_S_d0_1 h_S_) main_v66 main_c_25
  fn_part4 (F := F) main_arg15 main_v63 main_v67

def fn_part2 {F : FTy → Type} [FloatOps F] (main_arg8 : FVec F S256x256 .f32) (main_arg9 : FVec F S256 .f32) (main_arg10 : FVec F S1x768 .f32) (main_arg11 : FVec F S1 .f32) (main_arg12 : FVec F S1x768 .f32) (main_arg13 : FVec F S1 .f32) (main_arg14 : FVec F S1x768 .f32) (main_arg15 : FVec F S1 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S1x768 .f32 := Host.absf main_arg10
  let main_cst_16 : FVec F S_ .f32 := constant S_ .f32 0x7F800000#32
  let main_v45 : FVec F S1x768 .f32 := broadcastInDim S1x768 ![] bcast_S_S1x768 main_cst_16
  let main_v46 : IVec S1x768 1 := cmpf .olt main_v44 main_v45
  let main_c_17 : IVec S_ 1 := constantI S_ 1 1#1
  let main_v47 : IVec S_ 1 := (fun x v => Host.reduce IntOp.andi x v reducesTo_S1x768_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg12 main_arg13 main_arg14 main_arg15 main_v48 main_v49 main_v50

def fn_part1 {F : FTy → Type} [FloatOps F] (main_arg5 : FVec F S256 .f32) (main_arg6 : FVec F S256x256 .f32) (main_arg7 : FVec F S256 .f32) (main_arg8 : FVec F S256x256 .f32) (main_arg9 : FVec F S256 .f32) (main_arg10 : FVec F S1x768 .f32) (main_arg11 : FVec F S1 .f32) (main_arg12 : FVec F S1x768 .f32) (main_arg13 : FVec F S1 .f32) (main_arg14 : FVec F S1x768 .f32) (main_arg15 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S1024x128x256 .f32) (main_arg1 : FVec F S1024x128x256 .f32) (main_arg2 : FVec F S1024x128x256 .f32) (main_arg3 : IVec S128 32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S1x768 .f32) (main_arg11 : FVec F S1 .f32) (main_arg12 : FVec F S1x768 .f32) (main_arg13 : FVec F S1 .f32) (main_arg14 : FVec F S1x768 .f32) (main_arg15 : FVec F S1 .f32) : IVec S_ 1 :=
  let main_v0 : FVec F S1024x128x256 .f32 := Host.absf main_arg0
  let main_cst : FVec F S_ .f32 := constant S_ .f32 0x7F800000#32
  let main_v1 : FVec F S1024x128x256 .f32 := broadcastInDim S1024x128x256 ![] bcast_S_S1024x128x256 main_cst
  let main_v2 : IVec S1024x128x256 1 := cmpf .olt main_v0 main_v1
  let main_c : IVec S_ 1 := constantI S_ 1 1#1
  let main_v3 : IVec S_ 1 := (fun x v => Host.reduce IntOp.andi x v reducesTo_S1024x128x256_S_d0_1_2 h_S_) main_v2 main_c
  let main_v4 : FVec F S1024x128x256 .f32 := Host.absf main_arg1
  let main_cst_0 : FVec F S_ .f32 := constant S_ .f32 0x7F800000#32
  let main_v5 : FVec F S1024x128x256 .f32 := broadcastInDim S1024x128x256 ![] bcast_S_S1024x128x256 main_cst_0
  let main_v6 : IVec S1024x128x256 1 := cmpf .olt main_v4 main_v5
  let main_c_1 : IVec S_ 1 := constantI S_ 1 1#1
  let main_v7 : IVec S_ 1 := (fun x v => Host.reduce IntOp.andi x v reducesTo_S1024x128x256_S_d0_1_2 h_S_) main_v6 main_c_1
  let main_v8 : IVec S_ 1 := andi main_v3 main_v7
  let main_v9 : FVec F S1024x128x256 .f32 := Host.absf main_arg2
  let main_cst_2 : FVec F S_ .f32 := constant S_ .f32 0x7F800000#32
  let main_v10 : FVec F S1024x128x256 .f32 := broadcastInDim S1024x128x256 ![] bcast_S_S1024x128x256 main_cst_2
  let main_v11 : IVec S1024x128x256 1 := cmpf .olt main_v9 main_v10
  let main_c_3 : IVec S_ 1 := constantI S_ 1 1#1
  let main_v12 : IVec S_ 1 := (fun x v => Host.reduce IntOp.andi x v reducesTo_S1024x128x256_S_d0_1_2 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S1024x128x256 : Shape := ⟨3, ![1024, 128, 256]⟩
abbrev S128 : Shape := ⟨1, ![128]⟩
abbrev S256x256 : Shape := ⟨2, ![256, 256]⟩
abbrev S256 : Shape := ⟨1, ![256]⟩
abbrev S1x768 : Shape := ⟨2, ![1, 768]⟩
abbrev S1 : Shape := ⟨1, ![1]⟩
abbrev S128x1024x256 : Shape := ⟨3, ![128, 1024, 256]⟩
abbrev S131072x256 : Shape := ⟨2, ![131072, 256]⟩
abbrev S131072x768 : Shape := ⟨2, ![131072, 768]⟩
abbrev S1024x256 : Shape := ⟨2, ![1024, 256]⟩
abbrev S1024x768 : Shape := ⟨2, ![1024, 768]⟩
abbrev S1x256 : Shape := ⟨2, ![1, 256]⟩
abbrev S1024 : Shape := ⟨1, ![1024]⟩
abbrev S1024x1 : Shape := ⟨2, ![1024, 1]⟩
abbrev S1x1 : Shape := ⟨2, ![1, 1]⟩

abbrev nBuf : Space → Nat
  | .hbm => 26
  | .vmem => 20
  | .smem => 0
  | _ => 0

abbrev bufTy : (tb : Table) → Fin (tcTables nBuf tb) → BufTy
  | .hbm, ⟨0, _⟩ => ⟨S1024x128x256, .f32⟩
  | .hbm, ⟨1, _⟩ => ⟨S1024x128x256, .f32⟩
  | .hbm, ⟨2, _⟩ => ⟨S1024x128x256, .f32⟩
  | .hbm, ⟨3, _⟩ => ⟨S128, .i32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S1x768, .f32⟩
  | .hbm, ⟨11, _⟩ => ⟨S1, .f32⟩
  | .hbm, ⟨12, _⟩ => ⟨S1x768, .f32⟩
  | .hbm, ⟨13, _⟩ => ⟨S1, .f32⟩
  | .hbm, ⟨14, _⟩ => ⟨S1x768, .f32⟩
  | .hbm, ⟨15, _⟩ => ⟨S1, .f32⟩
  | .hbm, ⟨16, _⟩ => ⟨S128x1024x256, .f32⟩
  | .hbm, ⟨17, _⟩ => ⟨S131072x256, .f32⟩
  | .hbm, ⟨18, _⟩ => ⟨S128x1024x256, .f32⟩
  | .hbm, ⟨19, _⟩ => ⟨S131072x256, .f32⟩
  | .hbm, ⟨20, _⟩ => ⟨S128x1024x256, .f32⟩
  | .hbm, ⟨21, _⟩ => ⟨S131072x256, .f32⟩
  | .hbm, ⟨22, _⟩ => ⟨S256x256, .f32⟩
  | .hbm, ⟨23, _⟩ => ⟨S256x256, .f32⟩
  | .hbm, ⟨24, _⟩ => ⟨S256x256, .f32⟩
  | .hbm, ⟨25, _⟩ => ⟨S131072x768, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S256x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S256x256, .f32⟩
  | .local _ .vmem, ⟨11, _⟩ => ⟨S256, .f32⟩
  | .local _ .vmem, ⟨12, _⟩ => ⟨S1x768, .f32⟩
  | .local _ .vmem, ⟨13, _⟩ => ⟨S1, .f32⟩
  | .local _ .vmem, ⟨14, _⟩ => ⟨S1x768, .f32⟩
  | .local _ .vmem, ⟨15, _⟩ => ⟨S1, .f32⟩
  | .local _ .vmem, ⟨16, _⟩ => ⟨S1x768, .f32⟩
  | .local _ .vmem, ⟨17, _⟩ => ⟨S1, .f32⟩
  | .local _ .vmem, ⟨18, _⟩ => ⟨S1024x768, .f32⟩
  | .local _ .vmem, ⟨19, _⟩ => ⟨S1024x768, .f32⟩
  | _, _ => ⟨S1024x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  transposes_S1024x128x256_S128x1024x256_1_0_2 : S1024x128x256.Transposes [1, 0, 2] S128x1024x256
  shapeCasts_S128x1024x256_S131072x256 : S128x1024x256.ShapeCasts S131072x256
  transposes_S256x256_S256x256_1_0 : S256x256.Transposes [1, 0] S256x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S1x768_S1x768_0_0 : ∀ a, (![0, 0] : Fin 2 → Nat) a + S1x768.size a ≤ S1x768.size a
  h_S1x768 : 0 < S1x768.numel
  slices_S1x768_o0_0_S1x256 : S1x768.Slices ![0, 0] S1x256
  shapeCasts_S1x256_S256 : S1x256.ShapeCasts S256
  slices_S1x768_o0_256_S1x256 : S1x768.Slices ![0, 256] S1x256
  slices_S1x768_o0_512_S1x256 : S1x768.Slices ![0, 512] S1x256
  reduces_S1024x256_S1024 : S1024x256.Reduces [1] S1024
  shapeCasts_S1024_S1024x1 : S1024.ShapeCasts S1024x1
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  broadcasts_S1024x1_S1024x256 : S1024x1.Broadcasts S1024x256
  inb_S1024x768_S1024x256_0_0 : ∀ a, (![0, 0] : Fin 2 → Nat) a + S1024x256.size a ≤ S1024x768.size a
  inb_S1024x768_S1024x256_0_256 : ∀ a, (![0, 256] : Fin 2 → Nat) a + S1024x256.size a ≤ S1024x768.size a
  inb_S1024x768_S1024x256_0_512 : ∀ a, (![0, 512] : Fin 2 → Nat) a + S1024x256.size a ≤ S1024x768.size a
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S131072x256.size a
  hwx0_0 : ∀ i : grid0.Coords, EltTy.bits .f32 = 32 ∨ (Rect.block (s := S131072x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S131072x256.size a
  hwx0_1 : ∀ i : grid0.Coords, EltTy.bits .f32 = 32 ∨ (Rect.block (s := S131072x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S131072x256.size a
  hwx0_2 : ∀ i : grid0.Coords, EltTy.bits .f32 = 32 ∨ (Rect.block (s := S131072x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x768.size a ≤ S1x768.size a
  hwx0_9 : ∀ i : grid0.Coords, EltTy.bits .f32 = 32 ∨ (Rect.block (s := S1x768) S1x768.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x768.size a ≤ S1x768.size a
  hwx0_11 : ∀ i : grid0.Coords, EltTy.bits .f32 = 32 ∨ (Rect.block (s := S1x768) S1x768.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x768.size a ≤ S1x768.size a
  hwx0_13 : ∀ i : grid0.Coords, EltTy.bits .f32 = 32 ∨ (Rect.block (s := S1x768) S1x768.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1.size a ≤ S1.size a
  hwx0_14 : ∀ i : grid0.Coords, EltTy.bits .f32 = 32 ∨ (Rect.block (s := S1) S1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x768.size a ≤ S131072x768.size a
  hwx0_15 : ∀ i : grid0.Coords, EltTy.bits .f32 = 32 ∨ (Rect.block (s := S131072x768) S1024x768.size (cc0_transform_15 i) (hinb0_15 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_v1) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S1x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S1x768.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S1x768.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v9) S1024x768.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S1024x128x256 : Shape := ⟨3, ![1024, 128, 256]⟩
abbrev S128 : Shape := ⟨1, ![128]⟩
abbrev S256x256 : Shape := ⟨2, ![256, 256]⟩
abbrev S256 : Shape := ⟨1, ![256]⟩
abbrev S1x768 : Shape := ⟨2, ![1, 768]⟩
abbrev S1 : Shape := ⟨1, ![1]⟩
abbrev S128x1024x256 : Shape := ⟨3, ![128, 1024, 256]⟩
abbrev S131072x256 : Shape := ⟨2, ![131072, 256]⟩
abbrev S1x256 : Shape := ⟨2, ![1, 256]⟩
abbrev S131072x768 : Shape := ⟨2, ![131072, 768]⟩
abbrev S768x1 : Shape := ⟨2, ![768, 1]⟩
abbrev S131072x1 : Shape := ⟨2, ![131072, 1]⟩
abbrev S1x1 : Shape := ⟨2, ![1, 1]⟩
abbrev S_ : Shape := ⟨0, ![]⟩

abbrev nBuf : Space → Nat
  | .hbm => 110
  | .vmem => 0
  | .smem => 0
  | _ => 0

abbrev bufTy : (tb : Table) → Fin (tcTables nBuf tb) → BufTy
  | .hbm, ⟨0, _⟩ => ⟨S1024x128x256, .f32⟩
  | .hbm, ⟨1, _⟩ => ⟨S1024x128x256, .f32⟩
  | .hbm, ⟨2, _⟩ => ⟨S1024x128x256, .f32⟩
  | .hbm, ⟨3, _⟩ => ⟨S128, .i32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S1x768, .f32⟩
  | .hbm, ⟨11, _⟩ => ⟨S1, .f32⟩
  | .hbm, ⟨12, _⟩ => ⟨S1x768, .f32⟩
  | .hbm, ⟨13, _⟩ => ⟨S1, .f32⟩
  | .hbm, ⟨14, _⟩ => ⟨S1x768, .f32⟩
  | .hbm, ⟨15, _⟩ => ⟨S1, .f32⟩
  | .hbm, ⟨16, _⟩ => ⟨S128x1024x256, .f32⟩
  | .hbm, ⟨17, _⟩ => ⟨S131072x256, .f32⟩
  | .hbm, ⟨18, _⟩ => ⟨S128x1024x256, .f32⟩
  | .hbm, ⟨19, _⟩ => ⟨S131072x256, .f32⟩
  | .hbm, ⟨20, _⟩ => ⟨S128x1024x256, .f32⟩
  | .hbm, ⟨21, _⟩ => ⟨S131072x256, .f32⟩
  | .hbm, ⟨22, _⟩ => ⟨S256x256, .f32⟩
  | .hbm, ⟨23, _⟩ => ⟨S131072x256, .f32⟩
  | .hbm, ⟨24, _⟩ => ⟨S1x256, .f32⟩
  | .hbm, ⟨25, _⟩ => ⟨S131072x256, .f32⟩
  | .hbm, ⟨26, _⟩ => ⟨S131072x256, .f32⟩
  | .hbm, ⟨27, _⟩ => ⟨S131072x256, .f32⟩
  | .hbm, ⟨28, _⟩ => ⟨S256x256, .f32⟩
  | .hbm, ⟨29, _⟩ => ⟨S131072x256, .f32⟩
  | .hbm, ⟨30, _⟩ => ⟨S1x256, .f32⟩
  | .hbm, ⟨31, _⟩ => ⟨S131072x256, .f32⟩
  | .hbm, ⟨32, _⟩ => ⟨S131072x256, .f32⟩
  | .hbm, ⟨33, _⟩ => ⟨S131072x256, .f32⟩
  | .hbm, ⟨34, _⟩ => ⟨S256x256, .f32⟩
  | .hbm, ⟨35, _⟩ => ⟨S131072x256, .f32⟩
  | .hbm, ⟨36, _⟩ => ⟨S1x256, .f32⟩
  | .hbm, ⟨37, _⟩ => ⟨S131072x256, .f32⟩
  | .hbm, ⟨38, _⟩ => ⟨S131072x256, .f32⟩
  | .hbm, ⟨39, _⟩ => ⟨S131072x256, .f32⟩
  | .hbm, ⟨40, _⟩ => ⟨S131072x256, .f32⟩
  | .hbm, ⟨41, _⟩ => ⟨S131072x768, .f32⟩
  | .hbm, ⟨42, _⟩ => ⟨S768x1, .f32⟩
  | .hbm, ⟨43, _⟩ => ⟨S131072x1, .f32⟩
  | .hbm, ⟨44, _⟩ => ⟨S1x1, .f32⟩
  | .hbm, ⟨45, _⟩ => ⟨S131072x1, .f32⟩
  | .hbm, ⟨46, _⟩ => ⟨S131072x1, .f32⟩
  | .hbm, ⟨47, _⟩ => ⟨S131072x1, .f32⟩
  | .hbm, ⟨48, _⟩ => ⟨S131072x1, .f32⟩
  | .hbm, ⟨49, _⟩ => ⟨S_, .f32⟩
  | .hbm, ⟨50, _⟩ => ⟨S131072x1, .f32⟩
  | .hbm, ⟨51, _⟩ => ⟨S131072x1, .f32⟩
  | .hbm, ⟨52, _⟩ => ⟨S_, .f32⟩
  | .hbm, ⟨53, _⟩ => ⟨S131072x1, .f32⟩
  | .hbm, ⟨54, _⟩ => ⟨S131072x1, .f32⟩
  | .hbm, ⟨55, _⟩ => ⟨S131072x256, .f32⟩
  | .hbm, ⟨56, _⟩ => ⟨S131072x256, .f32⟩
  | .hbm, ⟨57, _⟩ => ⟨S_, .f32⟩
  | .hbm, ⟨58, _⟩ => ⟨S131072x1, .f32⟩
  | .hbm, ⟨59, _⟩ => ⟨S131072x1, .f32⟩
  | .hbm, ⟨60, _⟩ => ⟨S131072x256, .f32⟩
  | .hbm, ⟨61, _⟩ => ⟨S131072x256, .f32⟩
  | .hbm, ⟨62, _⟩ => ⟨S131072x256, .f32⟩
  | .hbm, ⟨63, _⟩ => ⟨S131072x256, .f32⟩
  | .hbm, ⟨64, _⟩ => ⟨S131072x768, .f32⟩
  | .hbm, ⟨65, _⟩ => ⟨S768x1, .f32⟩
  | .hbm, ⟨66, _⟩ => ⟨S131072x1, .f32⟩
  | .hbm, ⟨67, _⟩ => ⟨S1x1, .f32⟩
  | .hbm, ⟨68, _⟩ => ⟨S131072x1, .f32⟩
  | .hbm, ⟨69, _⟩ => ⟨S131072x1, .f32⟩
  | .hbm, ⟨70, _⟩ => ⟨S131072x1, .f32⟩
  | .hbm, ⟨71, _⟩ => ⟨S131072x1, .f32⟩
  | .hbm, ⟨72, _⟩ => ⟨S_, .f32⟩
  | .hbm, ⟨73, _⟩ => ⟨S131072x1, .f32⟩
  | .hbm, ⟨74, _⟩ => ⟨S131072x1, .f32⟩
  | .hbm, ⟨75, _⟩ => ⟨S_, .f32⟩
  | .hbm, ⟨76, _⟩ => ⟨S131072x1, .f32⟩
  | .hbm, ⟨77, _⟩ => ⟨S131072x1, .f32⟩
  | .hbm, ⟨78, _⟩ => ⟨S131072x256, .f32⟩
  | .hbm, ⟨79, _⟩ => ⟨S131072x256, .f32⟩
  | .hbm, ⟨80, _⟩ => ⟨S_, .f32⟩
  | .hbm, ⟨81, _⟩ => ⟨S131072x1, .f32⟩
  | .hbm, ⟨82, _⟩ => ⟨S131072x1, .f32⟩
  | .hbm, ⟨83, _⟩ => ⟨S131072x256, .f32⟩
  | .hbm, ⟨84, _⟩ => ⟨S131072x256, .f32⟩
  | .hbm, ⟨85, _⟩ => ⟨S131072x256, .f32⟩
  | .hbm, ⟨86, _⟩ => ⟨S131072x256, .f32⟩
  | .hbm, ⟨87, _⟩ => ⟨S131072x768, .f32⟩
  | .hbm, ⟨88, _⟩ => ⟨S768x1, .f32⟩
  | .hbm, ⟨89, _⟩ => ⟨S131072x1, .f32⟩
  | .hbm, ⟨90, _⟩ => ⟨S1x1, .f32⟩
  | .hbm, ⟨91, _⟩ => ⟨S131072x1, .f32⟩
  | .hbm, ⟨92, _⟩ => ⟨S131072x1, .f32⟩
  | .hbm, ⟨93, _⟩ => ⟨S131072x1, .f32⟩
  | .hbm, ⟨94, _⟩ => ⟨S131072x1, .f32⟩
  | .hbm, ⟨95, _⟩ => ⟨S_, .f32⟩
  | .hbm, ⟨96, _⟩ => ⟨S131072x1, .f32⟩
  | .hbm, ⟨97, _⟩ => ⟨S131072x1, .f32⟩
  | .hbm, ⟨98, _⟩ => ⟨S_, .f32⟩
  | .hbm, ⟨99, _⟩ => ⟨S131072x1, .f32⟩
  | .hbm, ⟨100, _⟩ => ⟨S131072x1, .f32⟩
  | .hbm, ⟨101, _⟩ => ⟨S131072x256, .f32⟩
  | .hbm, ⟨102, _⟩ => ⟨S131072x256, .f32⟩
  | .hbm, ⟨103, _⟩ => ⟨S_, .f32⟩
  | .hbm, ⟨104, _⟩ => ⟨S131072x1, .f32⟩
  | .hbm, ⟨105, _⟩ => ⟨S131072x1, .f32⟩
  | .hbm, ⟨106, _⟩ => ⟨S131072x256, .f32⟩
  | .hbm, ⟨107, _⟩ => ⟨S131072x256, .f32⟩
  | .hbm, ⟨108, _⟩ => ⟨S131072x256, .f32⟩
  | .hbm, ⟨109, _⟩ => ⟨S131072x768, .f32⟩
  | _, _ => ⟨S1024x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst : Ref sig .tc := ⟨.hbm, 49, rfl⟩
abbrev main_v33 : Ref sig .tc := ⟨.hbm, 50, rfl⟩
abbrev main_v34 : Ref sig .tc := ⟨.hbm, 51, rfl⟩
abbrev main_cst_0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_1 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_2 : Ref sig .tc := ⟨.hbm, 72, rfl⟩
abbrev main_v53 : Ref sig .tc := ⟨.hbm, 73, rfl⟩
abbrev main_v54 : Ref sig .tc := ⟨.hbm, 74, rfl⟩
abbrev main_cst_3 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_4 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_5 : Ref sig .tc := ⟨.hbm, 95, rfl⟩
abbrev main_v73 : Ref sig .tc := ⟨.hbm, 96, rfl⟩
abbrev main_v74 : Ref sig .tc := ⟨.hbm, 97, rfl⟩
abbrev main_cst_6 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_7 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩

abbrev nD : Nat := 1
abbrev τ : Topo := Topo.v7x

variable {F : FTy → Type} [FloatOps F]

class Facts₀ : Prop where
  transposes_S1024x128x256_S128x1024x256_1_0_2 : S1024x128x256.Transposes [1, 0, 2] S128x1024x256
  shapeCasts_S128x1024x256_S131072x256 : S128x1024x256.ShapeCasts S131072x256
  transposes_S256x256_S256x256_1_0 : S256x256.Transposes [1, 0] S256x256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  concatenates_S131072x256_S131072x256_S131072x256_S131072x768_d1 : Shape.Concatenates [S131072x256, S131072x256, S131072x256] S131072x768 1
  transposes_S1x768_S768x1_1_0 : S1x768.Transposes [1, 0] S768x1
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  bcast_S_S131072x1 : S_.BroadcastsInDim S131072x1 (![] : Fin 0 → Fin S131072x1.rank)
  bcast_S131072x1_S131072x256_0_1 : S131072x1.BroadcastsInDim S131072x256 (![0, 1] : Fin 2 → Fin S131072x256.rank)
  dot_S131072x256_S256x256_S131072x256_1_0_0_1_n_n_wf : DotDims.WF S131072x256 S256x256 S131072x256 [1] [0] [0] [1] [] []
  dot_S131072x768_S768x1_S131072x1_1_0_0_1_n_n_wf : DotDims.WF S131072x768 S768x1 S131072x1 [1] [0] [0] [1] [] []

variable [Facts₀]

def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x768_S768x1_S131072x1_1_0_0_1_n_n : DotDims S131072x768 S768x1 S131072x1 where
  lhsContracting := [1]
  rhsContracting := [0]
  lhsNonContracting := [0]
  rhsNonContracting := [1]
  lhsBatch := []
  rhsBatch := []
  wf := dot_S131072x768_S768x1_S131072x1_1_0_0_1_n_n_wf

class Facts : Prop extends Facts₀ where

variable [Facts]
-- ==== Proof.LibSumBlocks.lean ====
/-
  Regrouping a finite sum by blocks.  A sum over `Fin n` with `n = a * b` is the sum over the `a`
  blocks of `b` consecutive positions of each block's sum: position `p * b + q` is the `q`-th of
  block `p`.  Valid in any commutative additive monoid (the extended reals included: no
  cancellation is used), because it is only a re-indexing along the bijection
  `Fin a × Fin b ≃ Fin (a * b)`.
-/
import Mathlib.Algebra.BigOperators.Fin
import Mathlib.Logic.Equiv.Fin.Basic

namespace LibSumBlocks

/-- Position `q` of block `p` lies below `a * b`. -/
theorem mul_add_lt {a b p q : ℕ} (hp : p < a) (hq : q < b) : p * b + q < a * b :=
  calc p * b + q < p * b + b := by omega
    _ = (p + 1) * b := by rw [Nat.add_mul, Nat.one_mul]
    _ ≤ a * b := Nat.mul_le_mul_right b hp

/-- A sum over `Fin n`, `n = a * b`, is the double sum over the block `p : Fin a` and the position
    `q : Fin b` inside it of the term at `p * b + q`. -/
theorem sum_fin_blocks {M : Type*} [AddCommMonoid M] {n : ℕ} (a b : ℕ) (hn : a * b = n) (f : Fin n → M) :
    ∑ i : Fin n, f i
      = ∑ p : Fin a, ∑ q : Fin b, f ⟨p.val * b + q.val, hn ▸ mul_add_lt p.isLt q.isLt⟩ := by
  subst hn
  rw [← Equiv.sum_comp finProdFinEquiv f, Fintype.sum_prod_type]
  refine Finset.sum_congr rfl fun p _ => Finset.sum_congr rfl fun q _ => ?_
  refine congrArg f (Fin.ext ?_)
  show q.val + b * p.val = p.val * b + q.val
  rw [Nat.mul_comm, Nat.add_comm]

/-- The same for a term that depends on the position only through its value. -/
theorem sum_fin_nat_blocks {M : Type*} [AddCommMonoid M] {n : ℕ} (a b : ℕ) (hn : a * b = n) (g : ℕ → M) :
    ∑ i : Fin n, g i.val = ∑ p : Fin a, ∑ q : Fin b, g (p.val * b + q.val) :=
  sum_fin_blocks a b hn fun i => g i.val

/-- Three levels: `n = a * b * c` positions as `a` blocks of `b` rows of `c` entries; entry `l` of row `r` of
    block `t` is position `(t * b + r) * c + l`. -/
theorem sum_fin_nat_blocks3 {M : Type*} [AddCommMonoid M] {n : ℕ} (a b c : ℕ) (hn : a * b * c = n) (g : ℕ → M) :
    ∑ i : Fin n, g i.val
      = ∑ t : Fin a, ∑ r : Fin b, ∑ l : Fin c, g ((t.val * b + r.val) * c + l.val) := by
  rw [sum_fin_nat_blocks (a * b) c hn g]
  exact sum_fin_nat_blocks a b rfl fun R => ∑ l : Fin c, g (R * c + l.val)

/-- A sum over `Finset.range N` of a function that, below `N`, is a function of the `Fin N` position: the two
    spellings of one sum. -/
theorem sum_range_eq_sum_fin {M : Type*} [AddCommMonoid M] (N : ℕ) (g : ℕ → M) (f : Fin N → M)
    (h : ∀ t : Fin N, g t.val = f t) : ∑ s ∈ Finset.range N, g s = ∑ t : Fin N, f t := by
  rw [← Fin.sum_univ_eq_sum_range]
  exact Finset.sum_congr rfl fun t _ => h t

end LibSumBlocks
-- ==== Proof.LibNatRead.lean ====
/-
  Reading an array at natural-number coordinates.

  An entry of a rank-one, rank-two or rank-three array is addressed by a tuple of bounded coordinates; tile arithmetic
  (block index times block size plus offset) is easier to state over plain natural numbers. `at1`, `at2`, `at3`
  read the array at natural coordinates, giving zero outside the extents, and each entry IS the reading at the values
  of its coordinates (`apply_eq_at1` … `apply_eq_at3`), so an index equation becomes one equation of naturals per axis.
-/
import Idealize.ShloMosaic.Lib.ValueIdx

noncomputable section

namespace Cert.Lib.NatRead

open Idealize.ShloMosaic Idealize.ShloMosaic.ValueIdx

variable {α : Type} [Zero α]

/-- A length-`a` vector read at a natural position: its entry when in range, zero otherwise. -/
def at1 {a : ℕ} (A : (⟨1, ![a]⟩ : Shape).Idx → α) (r : ℕ) : α :=
  if h : r < a then A (ix1 ⟨r, h⟩) else 0

theorem at1_of_lt {a : ℕ} (A : (⟨1, ![a]⟩ : Shape).Idx → α) {r : ℕ} (hr : r < a) : at1 A r = A (ix1 ⟨r, hr⟩) := dif_pos hr

/-- An entry of a vector is the reading at the value of its coordinate. -/
theorem apply_eq_at1 {a : ℕ} (A : (⟨1, ![a]⟩ : Shape).Idx → α) (j : (⟨1, ![a]⟩ : Shape).Idx) {r : ℕ} (hr : (j 0).val = r) :
    A j = at1 A r := by
  subst hr
  rw [at1_of_lt A (j 0).isLt]
  exact congrArg A (eq_ix1 j)

/-- An `[a, b]` array read at natural coordinates: its entry when both are in range, zero otherwise. -/
def at2 {a b : ℕ} (A : (⟨2, ![a, b]⟩ : Shape).Idx → α) (r c : ℕ) : α :=
  if h : r < a ∧ c < b then A (ix2 ⟨r, h.1⟩ ⟨c, h.2⟩) else 0

theorem at2_of_lt {a b : ℕ} (A : (⟨2, ![a, b]⟩ : Shape).Idx → α) {r c : ℕ} (hr : r < a) (hc : c < b) :
    at2 A r c = A (ix2 ⟨r, hr⟩ ⟨c, hc⟩) := dif_pos ⟨hr, hc⟩

/-- An entry of a matrix is the reading at the values of its two coordinates. -/
theorem apply_eq_at2 {a b : ℕ} (A : (⟨2, ![a, b]⟩ : Shape).Idx → α) (j : (⟨2, ![a, b]⟩ : Shape).Idx) {r c : ℕ}
    (hr : (j 0).val = r) (hc : (j 1).val = c) : A j = at2 A r c := by
  subst hr hc
  rw [at2_of_lt A (idx2_lt0 j) (idx2_lt1 j)]
  exact congrArg A (eq_ix2 j)

/-- An `[a, b, c]` array read at natural coordinates: its entry when all three are in range, zero otherwise. -/
def at3 {a b c : ℕ} (A : (⟨3, ![a, b, c]⟩ : Shape).Idx → α) (r s u : ℕ) : α :=
  if h : r < a ∧ s < b ∧ u < c then A (ix3 ⟨r, h.1⟩ ⟨s, h.2.1⟩ ⟨u, h.2.2⟩) else 0

theorem at3_of_lt {a b c : ℕ} (A : (⟨3, ![a, b, c]⟩ : Shape).Idx → α) {r s u : ℕ} (hr : r < a) (hs : s < b) (hu : u < c) :
    at3 A r s u = A (ix3 ⟨r, hr⟩ ⟨s, hs⟩ ⟨u, hu⟩) := dif_pos ⟨hr, hs, hu⟩

/-- An entry of a rank-three array is the reading at the values of its three coordinates. -/
theorem apply_eq_at3 {a b c : ℕ} (A : (⟨3, ![a, b, c]⟩ : Shape).Idx → α) (j : (⟨3, ![a, b, c]⟩ : Shape).Idx) {r s u : ℕ}
    (hr : (j 0).val = r) (hs : (j 1).val = s) (hu : (j 2).val = u) : A j = at3 A r s u := by
  subst hr hs hu
  rw [at3_of_lt A (j 0).isLt (j 1).isLt (j 2).isLt]
  exact congrArg A (eq_ix3 j)

end Cert.Lib.NatRead

end
-- ==== Proof.GatedRows.lean ====
/-
  Pairwise gated fusion of three modalities, one output row at a time.

  Each of the three input rows (length 256) passes through its own dense layer followed by tanh. For each of the three
  pairs of modalities a scalar gate is the logistic function of a linear form in the two rows and their entrywise
  product (a weight row of length 768 in three thirds, plus a bias); the pair's output is the gate's convex-style mix
  of the two dense outputs, z·h₁ + (1 − z)·h₂. The output row (length 768) lists the three pairs' mixes side by side.

  The linear form can be written as three sums of 256 terms or as one sum of 768 terms over the two rows and their
  product laid side by side; the two agree in any commutative additive monoid (no cancellation is used, so also on
  the extended reals).
-/
import Idealize.ShloMosaic.PureOps.Ideal
import Idealize.ShloMosaic.Lib.ValueIdx
import Mathlib.Algebra.BigOperators.Fin
import proofs.«100944_j28097676051279_2_alg».proof.Proof.LibSumBlocks
import proofs.«100944_j28097676051279_2_alg».proof.Proof.LibNatRead

noncomputable section

namespace Cert.GatedRows

open Idealize.ShloMosaic Idealize.ShloMosaic.ValueIdx

/-- The first, second and third 256 positions of a row of 768. -/
abbrev lo (k : Fin 256) : Fin 768 := ⟨k.val, by have := k.isLt; omega⟩
abbrev mid (k : Fin 256) : Fin 768 := ⟨256 + k.val, by have := k.isLt; omega⟩
abbrev hi (k : Fin 256) : Fin 768 := ⟨512 + k.val, by have := k.isLt; omega⟩

/-- The literal one of the mix, kept as the word both programs spell. -/
def one : EReal := Ideal.ofBits .f32 0x3F800000#32

/-- A dense layer followed by tanh, at output position q: tanh (Σₖ x(k)·W(k, q) + b(q)). -/
def dense (x : Fin 256 → EReal) (W : (⟨2, ![256, 256]⟩ : Shape).Idx → EReal) (b : (⟨1, ![256]⟩ : Shape).Idx → EReal)
    (q : Fin 256) : EReal :=
  Ideal.tanh ((∑ k : Fin 256, x k * W (ix2 k q)) + b (ix1 q))

/-- The gate's linear form of two rows: the first row against the weight row's first third, the second row against
    its second third, their entrywise product against its last third, and the bias. -/
def logit (x y : Fin 256 → EReal) (w : (⟨2, ![1, 768]⟩ : Shape).Idx → EReal) (b : (⟨1, ![1]⟩ : Shape).Idx → EReal) : EReal :=
  (∑ k : Fin 256, x k * w (ix2 (0 : Fin 1) (lo k))) + (∑ k : Fin 256, y k * w (ix2 (0 : Fin 1) (mid k)))
    + (∑ k : Fin 256, x k * y k * w (ix2 (0 : Fin 1) (hi k))) + b (ix1 (0 : Fin 1))

/-- The gated mix z·h₁ + (1 − z)·h₂. -/
def mix (z h₁ h₂ : EReal) : EReal := z * h₁ + (one - z) * h₂

/-- One pair's output at position q: the mix of the two dense outputs under the pair's gate. -/
def pair (x y : Fin 256 → EReal) (Wx : (⟨2, ![256, 256]⟩ : Shape).Idx → EReal) (bx : (⟨1, ![256]⟩ : Shape).Idx → EReal)
    (Wy : (⟨2, ![256, 256]⟩ : Shape).Idx → EReal) (by' : (⟨1, ![256]⟩ : Shape).Idx → EReal)
    (w : (⟨2, ![1, 768]⟩ : Shape).Idx → EReal) (b : (⟨1, ![1]⟩ : Shape).Idx → EReal) (q : Fin 256) : EReal :=
  mix (Ideal.logistic (logit x y w b)) (dense x Wx bx q) (dense y Wy by' q)

/-- The fifteen weight arrays the three rows meet. -/
structure Weights where
  Wa : (⟨2, ![256, 256]⟩ : Shape).Idx → EReal
  ba : (⟨1, ![256]⟩ : Shape).Idx → EReal
  Wv : (⟨2, ![256, 256]⟩ : Shape).Idx → EReal
  bv : (⟨1, ![256]⟩ : Shape).Idx → EReal
  Wl : (⟨2, ![256, 256]⟩ : Shape).Idx → EReal
  bl : (⟨1, ![256]⟩ : Shape).Idx → EReal
  wav : (⟨2, ![1, 768]⟩ : Shape).Idx → EReal
  bav : (⟨1, ![1]⟩ : Shape).Idx → EReal
  wal : (⟨2, ![1, 768]⟩ : Shape).Idx → EReal
  bal : (⟨1, ![1]⟩ : Shape).Idx → EReal
  wvl : (⟨2, ![1, 768]⟩ : Shape).Idx → EReal
  bvl : (⟨1, ![1]⟩ : Shape).Idx → EReal

/-- The three pairs' outputs at position q: (a, v), (a, l), (v, l). -/
def pairAV (P : Weights) (xa xv : Fin 256 → EReal) (q : Fin 256) : EReal := pair xa xv P.Wa P.ba P.Wv P.bv P.wav P.bav q
def pairAL (P : Weights) (xa xl : Fin 256 → EReal) (q : Fin 256) : EReal := pair xa xl P.Wa P.ba P.Wl P.bl P.wal P.bal q
def pairVL (P : Weights) (xv xl : Fin 256 → EReal) (q : Fin 256) : EReal := pair xv xl P.Wv P.bv P.Wl P.bl P.wvl P.bvl q

/-- The output row: the three pairs side by side. -/
def row (P : Weights) (xa xv xl : Fin 256 → EReal) (j : Fin 768) : EReal :=
  if h : j.val < 256 then pairAV P xa xv ⟨j.val, h⟩
  else if h' : j.val < 512 then pairAL P xa xl ⟨j.val - 256, by omega⟩
  else pairVL P xv xl ⟨j.val - 512, by have := j.isLt; omega⟩

theorem row_lo (P : Weights) (xa xv xl : Fin 256 → EReal) (q : Fin 256) : row P xa xv xl (lo q) = pairAV P xa xv q := by
  unfold row; rw [dif_pos (show (lo q).val < 256 from q.isLt)]

theorem row_mid (P : Weights) (xa xv xl : Fin 256 → EReal) (q : Fin 256) : row P xa xv xl (mid q) = pairAL P xa xl q := by
  have h1 : ¬ (mid q).val < 256 := by show ¬ 256 + q.val < 256; omega
  have h2 : (mid q).val < 512 := by show 256 + q.val < 512; have := q.isLt; omega
  unfold row; rw [dif_neg h1, dif_pos h2]
  exact congrArg (pairAL P xa xl) (Fin.ext (by show 256 + q.val - 256 = q.val; omega))

theorem row_hi (P : Weights) (xa xv xl : Fin 256 → EReal) (q : Fin 256) : row P xa xv xl (hi q) = pairVL P xv xl q := by
  have h1 : ¬ (hi q).val < 256 := by show ¬ 512 + q.val < 256; omega
  have h2 : ¬ (hi q).val < 512 := by show ¬ 512 + q.val < 512; omega
  unfold row; rw [dif_neg h1, dif_neg h2]
  exact congrArg (pairVL P xv xl) (Fin.ext (by show 512 + q.val - 512 = q.val; omega))

/-- Every position of a row of 768 is in exactly one of the three thirds. -/
theorem thirds (j : Fin 768) : (∃ q, j = lo q) ∨ (∃ q, j = mid q) ∨ (∃ q, j = hi q) := by
  have hj := j.isLt
  by_cases h1 : j.val < 256
  · exact .inl ⟨⟨j.val, h1⟩, Fin.ext rfl⟩
  · by_cases h2 : j.val < 512
    · exact .inr (.inl ⟨⟨j.val - 256, by omega⟩, Fin.ext (by show j.val = 256 + (j.val - 256); omega)⟩)
    · exact .inr (.inr ⟨⟨j.val - 512, by omega⟩, Fin.ext (by show j.val = 512 + (j.val - 512); omega)⟩)

/-- A sum of 768 terms is the sum of its three thirds. -/
theorem sum_thirds {M : Type*} [AddCommMonoid M] (f : Fin 768 → M) :
    ∑ k : Fin 768, f k = (∑ k : Fin 256, f (lo k)) + (∑ k : Fin 256, f (mid k)) + (∑ k : Fin 256, f (hi k)) := by
  rw [LibSumBlocks.sum_fin_blocks 3 256 rfl f, Fin.sum_univ_three]
  refine congrArg₂ (· + ·) (congrArg₂ (· + ·) ?_ ?_) ?_
  · exact Finset.sum_congr rfl fun q _ => congrArg f (Fin.ext (by show 0 * 256 + q.val = q.val; omega))
  · exact Finset.sum_congr rfl fun q _ => congrArg f (Fin.ext (by show 1 * 256 + q.val = 256 + q.val; omega))
  · exact Finset.sum_congr rfl fun q _ => congrArg f (Fin.ext (by show 2 * 256 + q.val = 512 + q.val; omega))

/-! ## Whole arrays: every row of the result is the row function of the same row of the three inputs -/

/-- Row p of an n × 256 array, read at a natural row number (zero outside the array). -/
def rowAt {n : ℕ} (A : (⟨2, ![n, 256]⟩ : Shape).Idx → EReal) (p : ℕ) : Fin 256 → EReal :=
  fun k => Cert.Lib.NatRead.at2 A p k.val

theorem rowAt_of {n : ℕ} (A : (⟨2, ![n, 256]⟩ : Shape).Idx → EReal) (p : Fin n) : rowAt A p.val = fun k => A (ix2 p k) :=
  funext fun k => Cert.Lib.NatRead.at2_of_lt A p.isLt k.isLt

/-- The n × 768 result of three n × 256 inputs. -/
def rows {n : ℕ} (P : Weights) (A V L : (⟨2, ![n, 256]⟩ : Shape).Idx → EReal) : (⟨2, ![n, 768]⟩ : Shape).Idx → EReal :=
  fun i => row P (rowAt A (i 0).val) (rowAt V (i 0).val) (rowAt L (i 0).val) ⟨(i 1).val, idx2_lt1 i⟩

/-- The result at an index whose coordinates are row p and column j. -/
theorem rows_at {n : ℕ} (P : Weights) (A V L : (⟨2, ![n, 256]⟩ : Shape).Idx → EReal) (i : (⟨2, ![n, 768]⟩ : Shape).Idx)
    (p : Fin n) (j : Fin 768) (h0 : (i 0).val = p.val) (h1 : (i 1).val = j.val) :
    rows P A V L i = row P (fun k => A (ix2 p k)) (fun k => V (ix2 p k)) (fun k => L (ix2 p k)) j := by
  have e1 : (⟨(i 1).val, idx2_lt1 i⟩ : Fin 768) = j := Fin.ext h1
  unfold rows
  rw [h0, e1, rowAt_of, rowAt_of, rowAt_of]

end Cert.GatedRows

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibMatDims.lean ====
/-
  The dimension numbers of a plain matrix product, read at an entry.

  A product of an m×K matrix by a K×n matrix that contracts the left factor's columns against the right factor's rows,
  with no batch axes, reads — at output entry (p, q) and contraction position k — the left factor at (p, k) and the
  right factor at (k, q).  These are the four index facts the entry-wise reading of a product asks for, derived once
  from the lists of the dimension record instead of per record.
-/
import Idealize.ShloMosaic.PureOps.Dims

noncomputable section

namespace Cert.Lib.MatDims

open Idealize.ShloMosaic

variable {m K n : Nat} (D : DotDims ⟨2, ![m, K]⟩ ⟨2, ![K, n]⟩ ⟨2, ![m, n]⟩)

/-- One contracted axis. -/
theorem contr_rank (hc : D.lhsContracting = [1]) : D.contr.rank = 1 := by
  rw [D.rank_contr, hc]; rfl

/-- Its extent is the left factor's column count. -/
theorem contr_size (hc : D.lhsContracting = [1]) :
    D.contr.size ⟨0, by rw [contr_rank D hc]; exact Nat.one_pos⟩ = K := by
  rw [D.size_contr 0 (by rw [hc]; exact Nat.one_pos)]
  simp only [hc]
  rfl

/-- The left factor's row is the output's row. -/
theorem lhs_row (hb : D.lhsBatch = []) (hn : D.lhsNonContracting = [0])
    (i : (⟨2, ![m, n]⟩ : Shape).Idx) (c : D.contr.Idx) : (D.lhsIdx i c 0).val = (i 0).val := by
  unfold DotDims.lhsIdx
  rw [dif_neg (by rw [hb]; exact List.not_mem_nil), dif_pos (by rw [hn]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn])

/-- The left factor's column is the contraction position. -/
theorem lhs_col (hc : D.lhsContracting = [1]) (i : (⟨2, ![m, n]⟩ : Shape).Idx) (c : D.contr.Idx) :
    (D.lhsIdx i c 1).val = (c ⟨0, by rw [contr_rank D hc]; exact Nat.one_pos⟩).val :=
  D.lhsIdx_val_of_single hc i c

/-- The right factor's row is the contraction position. -/
theorem rhs_row (hc : D.lhsContracting = [1]) (hc' : D.rhsContracting = [0]) (i : (⟨2, ![m, n]⟩ : Shape).Idx)
    (c : D.contr.Idx) : (D.rhsIdx i c 0).val = (c ⟨0, by rw [contr_rank D hc]; exact Nat.one_pos⟩).val :=
  D.rhsIdx_val_of_single hc' i c

/-- The right factor's column is the output's column. -/
theorem rhs_col (hb : D.lhsBatch = []) (hb' : D.rhsBatch = []) (hn : D.lhsNonContracting = [0])
    (hn' : D.rhsNonContracting = [1]) (i : (⟨2, ![m, n]⟩ : Shape).Idx) (c : D.contr.Idx) :
    (D.rhsIdx i c 1).val = (i 1).val := by
  unfold DotDims.rhsIdx
  rw [dif_neg (by rw [hb']; exact List.not_mem_nil), dif_pos (by rw [hn']; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn, hn'])

end Cert.Lib.MatDims

end
-- ==== Proof.LibDenseLayer.lean ====
/-
  A dense layer as a TensorCore kernel computes it and as the host computes it, each read at an entry.

  The kernel multiplies an m×K block by a K×n weight matrix into a zero accumulator, casts the length-n bias to a
  [1, n] row, repeats the row down the m rows and adds.  The host takes the dot_general of the two matrices, lays the bias
  out as a [1, n] row and then as an [m, n] matrix by two broadcast_in_dim, and adds.  At exact arithmetic entry (p, q) of
  either result is (Σₖ left(p, k)·right(k, q)) + bias(q), whatever float formats the kernel's two factors carry.
-/
import Idealize.ShloMosaic.Lib.ValueIdx
import Idealize.ShloMosaic.Lib.ValueLayout
import Idealize.ShloMosaic.Lib.Pipeline.Value
import Idealize.ShloMosaic.PureOps.Ideal.Laws
import proofs.«100944_j28097676051279_2_alg».proof.Proof.LibDotEntry
import proofs.«100944_j28097676051279_2_alg».proof.Proof.LibMatDims

noncomputable section

namespace Cert.Lib.DenseLayer

open Idealize.ShloMosaic Idealize.ShloMosaic.TcCoe Idealize.SL.Sem Idealize.ShloMosaic.ValueIdx

/-- The dimension numbers of a plain matrix product: contract the left factor's columns against the right factor's
    rows; no batch axes. -/
structure IsMatProduct {m K n : Nat} (D : DotDims ⟨2, ![m, K]⟩ ⟨2, ![K, n]⟩ ⟨2, ![m, n]⟩) : Prop where
  lhsBatch : D.lhsBatch = []
  rhsBatch : D.rhsBatch = []
  lhsNon : D.lhsNonContracting = [0]
  rhsNon : D.rhsNonContracting = [1]
  lhsContr : D.lhsContracting = [1]
  rhsContr : D.rhsContracting = [0]

variable {m K n : Nat} {D : DotDims ⟨2, ![m, K]⟩ ⟨2, ![K, n]⟩ ⟨2, ![m, n]⟩}

/-- A TensorCore product into a zero accumulator at entry (p, q): the sum over k of left(p, k)·right(k, q). -/
theorem matmul_entry (hD : IsMatProduct D) {φ₁ φ₂ : FTy} (lhs : FVec Ideal ⟨2, ![m, K]⟩ φ₁)
    (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) :=
  Cert.Lib.DotEntry.matmul_zero_ix2 D (Cert.Lib.MatDims.contr_rank D hD.lhsContr) (Cert.Lib.MatDims.contr_size D hD.lhsContr)
    (Cert.Lib.MatDims.lhs_row D hD.lhsBatch hD.lhsNon) (Cert.Lib.MatDims.lhs_col D hD.lhsContr)
    (Cert.Lib.MatDims.rhs_row D hD.lhsContr hD.rhsContr)
    (Cert.Lib.MatDims.rhs_col D hD.lhsBatch hD.rhsBatch hD.lhsNon hD.rhsNon) lhs rhs p q

/-- The host's product at entry (p, q): the same sum. -/
theorem dotGeneral_entry (hD : IsMatProduct D) (lhs : FVec Ideal ⟨2, ![m, K]⟩ .f32)
    (rhs : FVec Ideal ⟨2, ![K, n]⟩ .f32) (p : Fin m) (q : Fin n) :
    Host.dotGeneral (F := Ideal) D none lhs rhs (ix2 p q) = ∑ k : Fin K, lhs (ix2 p k) * rhs (ix2 k q) :=
  Cert.Lib.DotEntry.dotGeneral_ix2 D (Cert.Lib.MatDims.contr_rank D hD.lhsContr) (Cert.Lib.MatDims.contr_size D hD.lhsContr)
    (Cert.Lib.MatDims.lhs_row D hD.lhsBatch hD.lhsNon) (Cert.Lib.MatDims.lhs_col D hD.lhsContr)
    (Cert.Lib.MatDims.rhs_row D hD.lhsContr hD.rhsContr)
    (Cert.Lib.MatDims.rhs_col D hD.lhsBatch hD.rhsBatch hD.lhsNon hD.rhsNon) lhs rhs p q

/-- The bias as the kernel lays it out — cast to a [1, n] row, the row repeated down m rows — at entry (p, q): bias(q). -/
theorem bias_entry {φ : FTy} (b : FVec Ideal ⟨1, ![n]⟩ φ) (hsc : (⟨1, ![n]⟩ : Shape).ShapeCasts ⟨2, ![1, n]⟩)
    (hbc : (⟨2, ![1, n]⟩ : Shape).Broadcasts ⟨2, ![m, n]⟩) (p : Fin m) (q : Fin n) :
    broadcastTo ⟨2, ![m, n]⟩ (shapeCast ⟨2, ![1, n]⟩ b hsc) hbc (ix2 p q) = b (ix1 q) :=
  (broadcastTo_1b_ab_apply _ hbc p q).trans (shapeCast_a_1a_apply b hsc 0 q)

/-- The kernel's dense layer at entry (p, q). -/
theorem dense_entry (hD : IsMatProduct D) {φ₁ φ₂ : FTy} (lhs : FVec Ideal ⟨2, ![m, K]⟩ φ₁)
    (rhs : FVec Ideal ⟨2, ![K, n]⟩ φ₂) (b : FVec Ideal ⟨1, ![n]⟩ .f32)
    (hsc : (⟨1, ![n]⟩ : Shape).ShapeCasts ⟨2, ![1, n]⟩) (hbc : (⟨2, ![1, n]⟩ : Shape).Broadcasts ⟨2, ![m, n]⟩)
    (p : Fin m) (q : Fin n) :
    addf (matmul D none lhs rhs (constant (F := Ideal) ⟨2, ![m, n]⟩ .f32 0x00000000#32))
        (broadcastTo ⟨2, ![m, n]⟩ (shapeCast ⟨2, ![1, n]⟩ b hsc) hbc) (ix2 p q)
      = (∑ k : Fin K, lhs (ix2 p k) * rhs (ix2 k q)) + b (ix1 q) := by
  rw [addf_apply, matmul_entry hD, bias_entry]

/-- The bias as the host lays it out — to a [1, n] row along axis 1, then to [m, n] along both axes — at entry (p, q):
    bias(q). -/
theorem host_bias_entry {α : Type} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    broadcastInDim ⟨2, ![m, n]⟩ ![0, 1] h₂ (broadcastInDim ⟨2, ![1, n]⟩ ![1] h₁ b) (ix2 p q) = b (ix1 q) := by
  refine (broadcastInDim_apply _ h₂ _ (ix2 p q) (ix2 (0 : Fin 1) q) fun ax => ?_).trans ?_
  · match ax with
    | ⟨0, _⟩ => rfl
    | ⟨1, _⟩ =>
      show q.val = if n = 1 then 0 else q.val
      split
      · have := q.isLt; omega
      · rfl
  · refine broadcastInDim_apply _ h₁ b (ix2 (0 : Fin 1) q) (ix1 q) fun ax => ?_
    match ax with
    | ⟨0, _⟩ =>
      show q.val = if n = 1 then 0 else q.val
      split
      · have := q.isLt; omega
      · rfl

/-- The host's dense layer at entry (p, q). -/
theorem host_dense_entry (hD : IsMatProduct D) (lhs : FVec Ideal ⟨2, ![m, K]⟩ .f32) (rhs : FVec Ideal ⟨2, ![K, n]⟩ .f32)
    (b : FVec Ideal ⟨1, ![n]⟩ .f32)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    addf (Host.dotGeneral (F := Ideal) D none lhs rhs)
        (broadcastInDim ⟨2, ![m, n]⟩ ![0, 1] h₂ (broadcastInDim ⟨2, ![1, n]⟩ ![1] h₁ b)) (ix2 p q)
      = (∑ k : Fin K, lhs (ix2 p k) * rhs (ix2 k q)) + b (ix1 q) := by
  rw [addf_apply, dotGeneral_entry hD, host_bias_entry]

end Cert.Lib.DenseLayer

end
-- ==== Proof.LibRowOps.lean ====
/-
  Row-wise building blocks of a `keepdims` normalisation, each read at an entry, at exact arithmetic.

  A kernel that divides every row of an [a, b] block by the row's sum builds the divisor in three steps: the lane
  sum [a, b] → [a], the cast [a] → [a, 1] that restores the dropped axis as a unit axis, and the broadcast
  [a, 1] → [a, b] that repeats each row's sum along the row. Read at entry (p, c) the three steps compose to
  `Σₖ x(p, k)`. Beside them: a matrix product of an [m, K] block by an [n, K] block that contracts the two trailing
  axes (the right factor stored row-per-output-column), into a zero accumulator, read at entry (p, q) as
  `Σₖ left(p, k) · right(q, k)`.
-/
import Idealize.ShloMosaic.Lib.ValueIdx
import Idealize.ShloMosaic.Lib.Pipeline.Value
import Idealize.ShloMosaic.PureOps.Ideal.Laws

noncomputable section

namespace Cert.Lib.RowOps

open Idealize.ShloMosaic Idealize.ShloMosaic.TcCoe Idealize.SL.Sem Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` block over its second axis, read at row `p`, is the sum of the row's entries. -/
theorem multiReduction_add_lanes {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction (F := Ideal) .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c; apply Fin.ext
  match c with
  | ⟨0, _⟩ => rfl
  | ⟨1, _⟩ => rfl

/-- The three steps composed: the row sum, kept as a unit axis and repeated along the row, read at `(p, c)`. -/
theorem rowSum_keepdims_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩) (p : Fin a) (c : Fin b) :
    broadcastTo ⟨2, ![a, b]⟩ (shapeCast ⟨2, ![a, 1]⟩ (multiReduction (F := Ideal) .add [1] ⟨1, ![a]⟩ src acc h hφ hacc) hc) hb (ix2 p c)
      = ∑ k : Fin b, src (ix2 p k) :=
  (broadcastTo_a1_ab_apply _ hb p c).trans ((shapeCast_a_a1_apply _ hc p 0).trans (multiReduction_add_lanes src acc h hφ hacc p))

/-- A TensorCore product of an m×K block by an n×K block contracting the two trailing axes, into a zero accumulator,
    read at entry (p, q): the sum over k of left (p, k) · right (q, k). The four hypotheses say where the product's
    dimension numbers send an output index and a contraction index: to (row, k) on the left and (column, k) on the
    right. -/
theorem matmul_nt_zero_ix2 {m K n : Nat} {φ₁ φ₂ : FTy} (D : DotDims ⟨2, ![m, K]⟩ ⟨2, ![n, K]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (i 1).val)
    (hr1 : ∀ (i : (⟨2, ![m, n]⟩ : Shape).Idx) (c : D.contr.Idx), (D.rhsIdx i c 1).val = (c ⟨0, by omega⟩).val)
    (lhs : FVec Ideal ⟨2, ![m, K]⟩ φ₁) (rhs : FVec Ideal ⟨2, ![n, K]⟩ φ₂) (p : Fin m) (q : Fin n) :
    matmul D none lhs rhs (constant (F := Ideal) ⟨2, ![m, n]⟩ .f32 0x00000000#32) (ix2 p q)
      = ∑ k : Fin K, lhs (ix2 p k) * rhs (ix2 q k) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Cert.Lib.RowOps

end
-- ==== Proof.KernelGate.lean ====
/-
  The pieces of the gated fusion as a TensorCore kernel computes them on a block of m rows, each read at an entry.

  A dense layer with tanh: the block times the weight matrix into a zero accumulator, the bias cast to a row and
  repeated down the rows, added, tanh. A third of a gate's weight row: the [1, 768] row cut to 256 columns from an
  offset and cast to a vector. One term of the gate's linear form: the block times that vector repeated down the rows,
  summed along each row and kept as a column. The gated mix: the logistic of the linear form's column repeated along
  the rows times one dense output, plus one minus it, repeated likewise, times the other.
-/
import Idealize.ShloMosaic.Lib.ValueIdx
import Idealize.ShloMosaic.Lib.ValueLayout
import Idealize.ShloMosaic.Lib.Pipeline.Value
import Idealize.ShloMosaic.PureOps.Ideal.Laws
import proofs.«100944_j28097676051279_2_alg».proof.Proof.GatedRows
import proofs.«100944_j28097676051279_2_alg».proof.Proof.LibDenseLayer
import proofs.«100944_j28097676051279_2_alg».proof.Proof.LibRowOps

noncomputable section

namespace Cert.KernelGate

open Idealize.ShloMosaic Idealize.ShloMosaic.TcCoe Idealize.SL.Sem Idealize.ShloMosaic.ValueIdx Cert.GatedRows

variable {m : Nat}

/-- The dense layer with tanh at entry (p, q): tanh (Σₖ X(p, k)·W(k, q) + b(q)), whatever formats the factors carry. -/
theorem dense_entry {D : DotDims ⟨2, ![m, 256]⟩ ⟨2, ![256, 256]⟩ ⟨2, ![m, 256]⟩} (hD : Cert.Lib.DenseLayer.IsMatProduct D)
    {φ₁ φ₂ : FTy} (X : FVec Ideal ⟨2, ![m, 256]⟩ φ₁) (W : FVec Ideal ⟨2, ![256, 256]⟩ φ₂) (b : FVec Ideal ⟨1, ![256]⟩ .f32)
    (hsc : (⟨1, ![256]⟩ : Shape).ShapeCasts ⟨2, ![1, 256]⟩) (hbc : (⟨2, ![1, 256]⟩ : Shape).Broadcasts ⟨2, ![m, 256]⟩)
    (p : Fin m) (q : Fin 256) :
    tanh (addf (matmul D none X W (constant (F := Ideal) ⟨2, ![m, 256]⟩ .f32 0x00000000#32))
        (broadcastTo ⟨2, ![m, 256]⟩ (shapeCast ⟨2, ![1, 256]⟩ b hsc) hbc)) (ix2 p q)
      = dense (fun k => X (ix2 p k)) W b q :=
  congrArg Ideal.tanh (Cert.Lib.DenseLayer.dense_entry hD X W b hsc hbc p q)

/-- A third of a weight row, cut from column o and cast to a vector, at position k: the row at column o + k. -/
theorem third_entry (w : FVec Ideal ⟨2, ![1, 768]⟩ .f32) (o : Nat)
    (hs : (⟨2, ![1, 768]⟩ : Shape).Slices ![0, o] ⟨2, ![1, 256]⟩) (hc : (⟨2, ![1, 256]⟩ : Shape).ShapeCasts ⟨1, ![256]⟩)
    (k : Fin 256) (k' : Fin 768) (hk : k'.val = o + k.val) :
    shapeCast ⟨1, ![256]⟩ (extractStridedSlice ⟨2, ![1, 256]⟩ ![0, o] w hs) hc (ix1 k) = w (ix2 (0 : Fin 1) k') :=
  (shapeCast_1a_a_apply _ hc k).trans (slice2_axis1_apply o w hs 0 k k' hk)

/-- The block times a vector repeated down the rows, summed along each row and kept as a column, at row p:
    Σₖ X(p, k)·v(k). -/
theorem lane_entry (X : FVec Ideal ⟨2, ![m, 256]⟩ .f32) (v : FVec Ideal ⟨1, ![256]⟩ .f32) (acc : BitVec 32)
    (hr : (⟨2, ![m, 256]⟩ : Shape).Reduces [1] ⟨1, ![m]⟩) (hφ : FKind.Formats .f32) (hacc : acc = FKind.add.neutral .f32 hφ)
    (hc1 : (⟨1, ![256]⟩ : Shape).ShapeCasts ⟨2, ![1, 256]⟩) (hb : (⟨2, ![1, 256]⟩ : Shape).Broadcasts ⟨2, ![m, 256]⟩)
    (hc2 : (⟨1, ![m]⟩ : Shape).ShapeCasts ⟨2, ![m, 1]⟩) (p : Fin m) (u : Fin 1) :
    shapeCast ⟨2, ![m, 1]⟩ (multiReduction (F := Ideal) .add [1] ⟨1, ![m]⟩
        (mulf X (broadcastTo ⟨2, ![m, 256]⟩ (shapeCast ⟨2, ![1, 256]⟩ v hc1) hb)) acc hr hφ hacc) hc2 (ix2 p u)
      = ∑ k : Fin 256, X (ix2 p k) * v (ix1 k) :=
  (Cert.Lib.RowOps.shapeCast_a_a1_apply _ hc2 p u).trans
    ((Cert.Lib.RowOps.multiReduction_add_lanes _ acc hr hφ hacc p).trans
      (Finset.sum_congr rfl fun k _ => congrArg (fun z => X (ix2 p k) * z) (Cert.Lib.DenseLayer.bias_entry v hc1 hb p k)))

/-- The same with the vector a third of a weight row: Σₖ X(p, k)·w(0, f k), f k the third's k-th column. -/
theorem lane_third (X : FVec Ideal ⟨2, ![m, 256]⟩ .f32) (w : FVec Ideal ⟨2, ![1, 768]⟩ .f32) (o : Nat)
    (hs : (⟨2, ![1, 768]⟩ : Shape).Slices ![0, o] ⟨2, ![1, 256]⟩) (hc0 : (⟨2, ![1, 256]⟩ : Shape).ShapeCasts ⟨1, ![256]⟩)
    (acc : BitVec 32)
    (hr : (⟨2, ![m, 256]⟩ : Shape).Reduces [1] ⟨1, ![m]⟩) (hφ : FKind.Formats .f32) (hacc : acc = FKind.add.neutral .f32 hφ)
    (hc1 : (⟨1, ![256]⟩ : Shape).ShapeCasts ⟨2, ![1, 256]⟩) (hb : (⟨2, ![1, 256]⟩ : Shape).Broadcasts ⟨2, ![m, 256]⟩)
    (hc2 : (⟨1, ![m]⟩ : Shape).ShapeCasts ⟨2, ![m, 1]⟩) (p : Fin m) (u : Fin 1)
    (f : Fin 256 → Fin 768) (hf : ∀ k, (f k).val = o + k.val) :
    shapeCast ⟨2, ![m, 1]⟩ (multiReduction (F := Ideal) .add [1] ⟨1, ![m]⟩
        (mulf X (broadcastTo ⟨2, ![m, 256]⟩ (shapeCast ⟨2, ![1, 256]⟩
          (shapeCast ⟨1, ![256]⟩ (extractStridedSlice ⟨2, ![1, 256]⟩ ![0, o] w hs) hc0) hc1) hb)) acc hr hφ hacc) hc2 (ix2 p u)
      = ∑ k : Fin 256, X (ix2 p k) * w (ix2 (0 : Fin 1) (f k)) :=
  (lane_entry X _ acc hr hφ hacc hc1 hb hc2 p u).trans
    (Finset.sum_congr rfl fun k _ => congrArg (fun z => X (ix2 p k) * z) (third_entry w o hs hc0 k (f k) (hf k)))

/-- The gated mix at entry (p, q): with z the logistic of the linear form's column at row p, z·H₁(p, q) + (1 − z)·H₂(p, q). -/
theorem mix_entry (L : FVec Ideal ⟨2, ![m, 1]⟩ .f32) (H₁ H₂ : FVec Ideal ⟨2, ![m, 256]⟩ .f32)
    (hb : (⟨2, ![m, 1]⟩ : Shape).Broadcasts ⟨2, ![m, 256]⟩) (p : Fin m) (q : Fin 256) :
    addf (mulf (broadcastTo ⟨2, ![m, 256]⟩ (logistic L) hb) H₁)
        (mulf (broadcastTo ⟨2, ![m, 256]⟩
          (subf (broadcast ⟨2, ![m, 1]⟩ (Scalar.ofBits (F := Ideal) .f32 0x3F800000#32)) (logistic L)) hb) H₂) (ix2 p q)
      = mix (Ideal.logistic (L (ix2 p (0 : Fin 1)))) (H₁ (ix2 p q)) (H₂ (ix2 p q)) := by
  show broadcastTo ⟨2, ![m, 256]⟩ (logistic L) hb (ix2 p q) * H₁ (ix2 p q)
      + broadcastTo ⟨2, ![m, 256]⟩ (subf (broadcast ⟨2, ![m, 1]⟩ (Scalar.ofBits (F := Ideal) .f32 0x3F800000#32)) (logistic L)) hb (ix2 p q)
        * H₂ (ix2 p q) = _
  rw [Cert.Lib.RowOps.broadcastTo_a1_ab_apply, Cert.Lib.RowOps.broadcastTo_a1_ab_apply]
  rfl

end Cert.KernelGate

end
-- ==== Proof.KernelRows.lean ====
/-
  What one grid point's body leaves in its 1024 × 768 output block, as one function of its input blocks.

  The body stores three 1024 × 256 slabs side by side. The slab at columns 0…255 is the (a, v) pair's gated mix, the
  slab at columns 256…511 the (a, l) pair's, the slab at columns 512…767 the (v, l) pair's: in each, row r depends
  only on row r of the two modalities' blocks (through their dense layers and through the gate's linear form) and on
  the weights. So the whole block is, row by row, the row function of the three input blocks' rows.
-/
import proofs.«100944_j28097676051279_2_alg».proof.Proof.Gen.KernelIdeal.Frame
import proofs.«100944_j28097676051279_2_alg».proof.Proof.GatedRows
import proofs.«100944_j28097676051279_2_alg».proof.Proof.KernelGate

noncomputable section

namespace Cert.KernelIdeal.Rows

open Cert.KernelIdeal Cert.KernelIdeal.Gen Idealize.ShloMosaic Idealize.ShloMosaic.TcCoe Idealize.SL.Sem
open Idealize.ShloMosaic.ValueIdx Cert.GatedRows

theorem hz2 : (![0, 0] : Fin 2 → Nat) = fun _ => 0 := funext fun a => by fin_cases a <;> rfl
theorem hz1 : (![0] : Fin 1 → Nat) = fun _ => 0 := funext fun a => by fin_cases a; rfl

/-- The body's matrix products contract the block's columns against the weight matrix's rows. -/
theorem isMatProduct : Cert.Lib.DenseLayer.IsMatProduct dot_S1024x256_S256x256_S1024x256_1_0_0_1_n_n :=
  ⟨rfl, rfl, rfl, rfl, rfl, rfl⟩

/-! ## The three dense layers -/

theorem dense_a (v0 : Vec Ideal S1024x256 .f32) (v9 : Vec Ideal S256x256 .f32) (v19 : Vec Ideal S256 .f32)
    (r : Fin 1024) (q : Fin 256) : k0_pay5 v0 v9 v19 (ix2 r q) = dense (fun k => v0 (ix2 r k)) v9 v19 q := by
  unfold k0_pay5 k0_pay2
  simp only [shapeCast_self]
  exact Cert.KernelGate.dense_entry isMatProduct (truncf .bf16 v0 bitsLt_bf16_f32) (truncf .bf16 v9 bitsLt_bf16_f32) v19 _ _ r q

theorem dense_v (v2 : Vec Ideal S1024x256 .f32) (v12 : Vec Ideal S256x256 .f32) (v25 : Vec Ideal S256 .f32)
    (r : Fin 1024) (q : Fin 256) : k0_pay6 v2 v12 v25 (ix2 r q) = dense (fun k => v2 (ix2 r k)) v12 v25 q := by
  unfold k0_pay6 k0_pay3
  simp only [shapeCast_self]
  exact Cert.KernelGate.dense_entry isMatProduct (truncf .bf16 v2 bitsLt_bf16_f32) (truncf .bf16 v12 bitsLt_bf16_f32) v25 _ _ r q

theorem dense_l (v4 : Vec Ideal S1024x256 .f32) (v15 : Vec Ideal S256x256 .f32) (v31 : Vec Ideal S256 .f32)
    (r : Fin 1024) (q : Fin 256) : k0_pay7 v4 v15 v31 (ix2 r q) = dense (fun k => v4 (ix2 r k)) v15 v31 q := by
  unfold k0_pay7 k0_pay4
  simp only [shapeCast_self]
  exact Cert.KernelGate.dense_entry isMatProduct (truncf .bf16 v4 bitsLt_bf16_f32) (truncf .bf16 v15 bitsLt_bf16_f32) v31 _ _ r q

/-! ## The three gated mixes -/

/-- The (a, v) slab: the gate's three row sums and its bias are formed in the same expression as the mix. -/
theorem mix_av (v1 v3 v23 v29 : FVec Ideal S1024x256 .f32) (v36 : Vec Ideal S1x768 .f32) (v61 : Vec Ideal S1 .f32)
    (r : Fin 1024) (q : Fin 256) :
    k0_pay9 v1 v3 v23 v29 v36 (k0_pay8 v36) v61 (ix2 r q)
      = mix (Ideal.logistic (logit (fun k => v1 (ix2 r k)) (fun k => v3 (ix2 r k)) v36 v61)) (v23 (ix2 r q)) (v29 (ix2 r q)) := by
  unfold k0_pay9 k0_pay8
  refine (Cert.KernelGate.mix_entry _ v23 v29 broadcasts_S1024x1_S1024x256 r q).trans ?_
  refine congrArg (fun z => mix (Ideal.logistic z) (v23 (ix2 r q)) (v29 (ix2 r q))) ?_
  unfold logit
  refine congrArg₂ (· + ·) (congrArg₂ (· + ·) (congrArg₂ (· + ·) ?_ ?_) ?_) ?_
  · exact Cert.KernelGate.lane_third v1 v36 0 _ _ _ _ _ _ _ _ _ r 0 lo (fun k => (Nat.zero_add _).symm)
  · exact Cert.KernelGate.lane_third v3 v36 256 _ _ _ _ _ _ _ _ _ r 0 mid (fun k => rfl)
  · exact Cert.KernelGate.lane_third (mulf v1 v3) v36 512 _ _ _ _ _ _ _ _ _ r 0 hi (fun k => rfl)
  · exact Cert.Lib.DenseLayer.bias_entry v61 _ _ r (0 : Fin 1)

/-- The (a, l) slab: two of the gate's row sums arrive already formed, as columns. -/
theorem mix_al (v1 v5 v23 v35 : FVec Ideal S1024x256 .f32) (v73 : Vec Ideal S1x768 .f32) (v98 : Vec Ideal S1 .f32)
    (r : Fin 1024) (q : Fin 256) :
    k0_pay13 v1 v5 v23 v35 (k0_pay10 v73) (k0_pay11 v1 v73) (k0_pay12 v5 v73) v98 (ix2 r q)
      = mix (Ideal.logistic (logit (fun k => v1 (ix2 r k)) (fun k => v5 (ix2 r k)) v73 v98)) (v23 (ix2 r q)) (v35 (ix2 r q)) := by
  unfold k0_pay13 k0_pay10 k0_pay11 k0_pay12
  refine (Cert.KernelGate.mix_entry _ v23 v35 broadcasts_S1024x1_S1024x256 r q).trans ?_
  refine congrArg (fun z => mix (Ideal.logistic z) (v23 (ix2 r q)) (v35 (ix2 r q))) ?_
  unfold logit
  refine congrArg₂ (· + ·) (congrArg₂ (· + ·) (congrArg₂ (· + ·) ?_ ?_) ?_) ?_
  · exact Cert.KernelGate.lane_third v1 v73 0 _ _ _ _ _ _ _ _ _ r 0 lo (fun k => (Nat.zero_add _).symm)
  · exact Cert.KernelGate.lane_third v5 v73 256 _ _ _ _ _ _ _ _ _ r 0 mid (fun k => rfl)
  · exact Cert.KernelGate.lane_third (mulf v1 v5) v73 512 _ _ _ _ _ _ _ _ _ r 0 hi (fun k => rfl)
  · exact Cert.Lib.DenseLayer.bias_entry v98 _ _ r (0 : Fin 1)

/-- The (v, l) slab: the gate arrives as a column and, repeated along the rows, as a block. -/
theorem mix_vl (v3 v5 v29 v35 : FVec Ideal S1024x256 .f32) (v110 : Vec Ideal S1x768 .f32) (v135 : Vec Ideal S1 .f32)
    (r : Fin 1024) (q : Fin 256) :
    k0_pay1 v29 v35 (k0_pay14 v3 v5 v110 v135) (k0_pay15 v3 v5 v110 v135) (ix2 r q)
      = mix (Ideal.logistic (logit (fun k => v3 (ix2 r k)) (fun k => v5 (ix2 r k)) v110 v135)) (v29 (ix2 r q)) (v35 (ix2 r q)) := by
  unfold k0_pay1 k0_pay15 k0_pay14
  refine (Cert.KernelGate.mix_entry _ v29 v35 broadcasts_S1024x1_S1024x256 r q).trans ?_
  refine congrArg (fun z => mix (Ideal.logistic z) (v29 (ix2 r q)) (v35 (ix2 r q))) ?_
  unfold logit
  refine congrArg₂ (· + ·) (congrArg₂ (· + ·) (congrArg₂ (· + ·) ?_ ?_) ?_) ?_
  · exact Cert.KernelGate.lane_third v3 v110 0 _ _ _ _ _ _ _ _ _ r 0 lo (fun k => (Nat.zero_add _).symm)
  · exact Cert.KernelGate.lane_third v5 v110 256 _ _ _ _ _ _ _ _ _ r 0 mid (fun k => rfl)
  · exact Cert.KernelGate.lane_third (mulf v3 v5) v110 512 _ _ _ _ _ _ _ _ _ r 0 hi (fun k => rfl)
  · exact Cert.Lib.DenseLayer.bias_entry v135 _ _ r (0 : Fin 1)

/-! ## The block -/

/-- The weights as the body's twelve weight blocks. -/
def weightsOf (x3 : Vec Ideal S256x256 .f32) (x4 : Vec Ideal S256 .f32) (x5 : Vec Ideal S256x256 .f32) (x6 : Vec Ideal S256 .f32)
    (x7 : Vec Ideal S256x256 .f32) (x8 : Vec Ideal S256 .f32) (x9 : Vec Ideal S1x768 .f32) (x10 : Vec Ideal S1 .f32)
    (x11 : Vec Ideal S1x768 .f32) (x12 : Vec Ideal S1 .f32) (x13 : Vec Ideal S1x768 .f32) (x14 : Vec Ideal S1 .f32) : Weights :=
  ⟨x3, x4, x5, x6, x7, x8, x9, x10, x11, x12, x13, x14⟩

/-- The output block after the body is the row function of the three input blocks, row by row. -/
theorem block_eq (x0 x1 x2 : Vec Ideal S1024x256 .f32) (x3 : Vec Ideal S256x256 .f32) (x4 : Vec Ideal S256 .f32)
    (x5 : Vec Ideal S256x256 .f32) (x6 : Vec Ideal S256 .f32) (x7 : Vec Ideal S256x256 .f32) (x8 : Vec Ideal S256 .f32)
    (x9 : Vec Ideal S1x768 .f32) (x10 : Vec Ideal S1 .f32) (x11 : Vec Ideal S1x768 .f32) (x12 : Vec Ideal S1 .f32)
    (x13 : Vec Ideal S1x768 .f32) (x14 : Vec Ideal S1 .f32) (y : S1024x768.Idx) :
    out0_15 x0 x1 x2 x3 x4 x5 x6 x7 x8 x9 x10 x11 x12 x13 x14 y
      = rows (weightsOf x3 x4 x5 x6 x7 x8 x9 x10 x11 x12 x13 x14) x0 x1 x2 y := by
  unfold out0_15
  simp only [k0_pay2, k0_pay3, k0_pay4, shapeCast_self, View.ld_unit_zero (S := S1024x256) hz2,
    View.ld_unit_zero (S := S256x256) hz2, View.ld_unit_zero (S := S256) hz1, View.ld_unit_zero (S := S1x768) hz2,
    View.ld_unit_zero (S := S1) hz1]
  refine View.canon_apply_of_pieces (Val := Elt Ideal) (S := S1024x768) (e := .f32) (rows (weightsOf x3 x4 x5 x6 x7 x8 x9 x10 x11 x12 x13 x14) x0 x1 x2) _ ?_ y (cover0_15 _ _ _ y)
  intro pc hpc x
  simp only [List.mem_cons, List.not_mem_nil, or_false] at hpc
  rcases hpc with rfl | rfl | rfl
  · obtain ⟨r, q, rfl⟩ : ∃ (r : Fin 1024) (q : Fin 256), x = ix2 r q := ⟨x 0, x 1, eq_ix2 x⟩
    rw [rows_at _ x0 x1 x2 _ r (hi q) (by show 0 + 1 * r.val = r.val; omega) (by show 512 + 1 * q.val = 512 + q.val; omega), row_hi]
    exact (mix_vl x1 x2 _ _ x13 x14 r q).trans (congrArg₂ (mix _) (dense_v x1 x5 x6 r q) (dense_l x2 x7 x8 r q))
  · obtain ⟨r, q, rfl⟩ : ∃ (r : Fin 1024) (q : Fin 256), x = ix2 r q := ⟨x 0, x 1, eq_ix2 x⟩
    rw [rows_at _ x0 x1 x2 _ r (mid q) (by show 0 + 1 * r.val = r.val; omega) (by show 256 + 1 * q.val = 256 + q.val; omega), row_mid]
    exact (mix_al x0 x2 _ _ x11 x12 r q).trans (congrArg₂ (mix _) (dense_a x0 x3 x4 r q) (dense_l x2 x7 x8 r q))
  · obtain ⟨r, q, rfl⟩ : ∃ (r : Fin 1024) (q : Fin 256), x = ix2 r q := ⟨x 0, x 1, eq_ix2 x⟩
    rw [rows_at _ x0 x1 x2 _ r (lo q) (by show 0 + 1 * r.val = r.val; omega) (by show 0 + 1 * q.val = q.val; omega), row_lo]
    exact (mix_av x0 x1 _ _ x9 x10 r q).trans (congrArg₂ (mix _) (dense_a x0 x3 x4 r q) (dense_v x1 x5 x6 r q))

end Cert.KernelIdeal.Rows

end
-- ==== Proof.KernelArray.lean ====
/-
  From blocks to the whole array. Grid point t takes rows 1024·t … 1024·t + 1023 of the three 131072 × 256 inputs
  (and every weight array whole) and writes back rows 1024·t … 1024·t + 1023 of the 131072 × 768 result. Each block
  written is the row function of the rows it read, so it is the matching block of ONE whole-array function; the 128
  blocks tile the result, so after the run the result array is that function.
-/
import proofs.«100944_j28097676051279_2_alg».proof.Proof.Gen.KernelIdeal.Value
import proofs.«100944_j28097676051279_2_alg».proof.Proof.KernelRows

noncomputable section

namespace Cert.KernelIdeal.Whole

open Cert.KernelIdeal Cert.KernelIdeal.Gen Cert.KernelIdeal.Rows Idealize.ShloMosaic Idealize.ShloMosaic.TcCoe Idealize.SL.Sem
open Idealize.ShloMosaic.ValueIdx Cert.GatedRows Cert.Lib.NatRead
open Idealize.ShloMosaic.Pipeline (Dat)

variable (m : (ℓ : Loc nD τ sig) → Buf (Elt Ideal) ℓ) (ρ : Dev nD → PrngReg)

/-! ## The index maps, decided over the 128 grid points -/

/-- The three row windows move with the output window along the rows and stay at column block 0. -/
theorem idx_facts : ∀ t : Fin cfg0.N,
    win0_0.index t (0 : Fin 2) = win0_15.index t (0 : Fin 2) ∧ win0_0.index t (1 : Fin 2) = 0
    ∧ win0_1.index t (0 : Fin 2) = win0_15.index t (0 : Fin 2) ∧ win0_1.index t (1 : Fin 2) = 0
    ∧ win0_2.index t (0 : Fin 2) = win0_15.index t (0 : Fin 2) ∧ win0_2.index t (1 : Fin 2) = 0
    ∧ win0_15.index t (1 : Fin 2) = 0 ∧ win0_15.index t (0 : Fin 2) ≤ 127 :=
  (by decide +kernel : ∀ t : Fin grid0.N, _)

/-- The twelve weight windows stay at block 0: their one block is the whole array. -/
theorem idx_whole : ∀ t : Fin cfg0.N,
    win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = 0 ∧ win0_11.index t (1 : Fin 2) = 0
    ∧ win0_12.index t (0 : Fin 1) = 0
    ∧ win0_13.index t (0 : Fin 2) = 0 ∧ win0_13.index t (1 : Fin 2) = 0
    ∧ win0_14.index t (0 : Fin 1) = 0 :=
  (by decide +kernel : ∀ t : Fin grid0.N, _)

/-- Every row block of the result is some point's. -/
theorem idx_onto : ∀ q0 : Fin 128, ∃ t : Fin cfg0.N, win0_15.index t = ![q0.val, 0] :=
  (by decide +kernel : ∀ q0 : Fin 128, ∃ t : Fin grid0.N, win0_15.index t = ![q0.val, 0])

/-! ## The input blocks, read off the arrays -/

theorem rows0 (c : Dev nD) (t : Fin cfg0.N) (r : Fin 1024) (k : Fin 256) :
    iblk m c 0 t (ix2 r k) = at2 (α := EReal) (a := 131072) (b := 256) (V m c main_v1) (win0_15.index t (0 : Fin 2) * 1024 + r.val) k.val := by
  obtain ⟨e0a, e0b, e1a, e1b, e2a, e2b, e15b, e15a⟩ := idx_facts t
  show V m c main_v1 (((cfg0.win 0).blk t).view.emb (ix2 r k)) = _
  refine apply_eq_at2 (α := EReal) (a := 131072) (b := 256) (V m c main_v1) _ ?_ ?_
  · show win0_0.index t (0 : Fin 2) * 1024 + 1 * r.val = _; omega
  · show win0_0.index t (1 : Fin 2) * 256 + 1 * k.val = _; omega

theorem rows1 (c : Dev nD) (t : Fin cfg0.N) (r : Fin 1024) (k : Fin 256) :
    iblk m c 1 t (ix2 r k) = at2 (α := EReal) (a := 131072) (b := 256) (V m c main_v3) (win0_15.index t (0 : Fin 2) * 1024 + r.val) k.val := by
  obtain ⟨e0a, e0b, e1a, e1b, e2a, e2b, e15b, e15a⟩ := idx_facts t
  show V m c main_v3 (((cfg0.win 1).blk t).view.emb (ix2 r k)) = _
  refine apply_eq_at2 (α := EReal) (a := 131072) (b := 256) (V m c main_v3) _ ?_ ?_
  · show win0_1.index t (0 : Fin 2) * 1024 + 1 * r.val = _; omega
  · show win0_1.index t (1 : Fin 2) * 256 + 1 * k.val = _; omega

theorem rows2 (c : Dev nD) (t : Fin cfg0.N) (r : Fin 1024) (k : Fin 256) :
    iblk m c 2 t (ix2 r k) = at2 (α := EReal) (a := 131072) (b := 256) (V m c main_v5) (win0_15.index t (0 : Fin 2) * 1024 + r.val) k.val := by
  obtain ⟨e0a, e0b, e1a, e1b, e2a, e2b, e15b, e15a⟩ := idx_facts t
  show V m c main_v5 (((cfg0.win 2).blk t).view.emb (ix2 r k)) = _
  refine apply_eq_at2 (α := EReal) (a := 131072) (b := 256) (V m c main_v5) _ ?_ ?_
  · show win0_2.index t (0 : Fin 2) * 1024 + 1 * r.val = _; omega
  · show win0_2.index t (1 : Fin 2) * 256 + 1 * k.val = _; omega

theorem whole3 (c : Dev nD) (t : Fin cfg0.N) : (iblk m c 3 t : Vec Ideal S256x256 .f32) = V m c main_v6 := by
  obtain ⟨h3a, h3b, h4a, h5a, h5b, h6a, h7a, h7b, h8a, h9a, h9b, h10a, h11a, h11b, h12a, h13a, h13b, h14a⟩ := idx_whole t
  funext y
  show V m c main_v6 (((cfg0.win 3).blk t).view.emb y) = V m c main_v6 y
  refine congrArg (V m c main_v6) (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem whole4 (c : Dev nD) (t : Fin cfg0.N) : (iblk m c 4 t : Vec Ideal S256 .f32) = V m c main_arg5 := by
  obtain ⟨h3a, h3b, h4a, h5a, h5b, h6a, h7a, h7b, h8a, h9a, h9b, h10a, h11a, h11b, h12a, h13a, h13b, h14a⟩ := idx_whole t
  funext y
  show V m c main_arg5 (((cfg0.win 4).blk t).view.emb y) = V m c main_arg5 y
  refine congrArg (V m c main_arg5) (funext fun a => Fin.ext ?_)
  match a with
  | ⟨0, _⟩ => show win0_4.index t (0 : Fin 1) * 256 + 1 * (y 0).val = (y 0).val; omega

theorem whole5 (c : Dev nD) (t : Fin cfg0.N) : (iblk m c 5 t : Vec Ideal S256x256 .f32) = V m c main_v7 := by
  obtain ⟨h3a, h3b, h4a, h5a, h5b, h6a, h7a, h7b, h8a, h9a, h9b, h10a, h11a, h11b, h12a, h13a, h13b, h14a⟩ := idx_whole t
  funext y
  show V m c main_v7 (((cfg0.win 5).blk t).view.emb y) = V m c main_v7 y
  refine congrArg (V m c main_v7) (funext fun a => Fin.ext ?_)
  match a with
  | ⟨0, _⟩ => show win0_5.index t (0 : Fin 2) * 256 + 1 * (y 0).val = (y 0).val; omega
  | ⟨1, _⟩ => show win0_5.index t (1 : Fin 2) * 256 + 1 * (y 1).val = (y 1).val; omega

theorem whole6 (c : Dev nD) (t : Fin cfg0.N) : (iblk m c 6 t : Vec Ideal S256 .f32) = V m c main_arg7 := by
  obtain ⟨h3a, h3b, h4a, h5a, h5b, h6a, h7a, h7b, h8a, h9a, h9b, h10a, h11a, h11b, h12a, h13a, h13b, h14a⟩ := idx_whole t
  funext y
  show V m c main_arg7 (((cfg0.win 6).blk t).view.emb y) = V m c main_arg7 y
  refine congrArg (V m c main_arg7) (funext fun a => Fin.ext ?_)
  match a with
  | ⟨0, _⟩ => show win0_6.index t (0 : Fin 1) * 256 + 1 * (y 0).val = (y 0).val; omega

theorem whole7 (c : Dev nD) (t : Fin cfg0.N) : (iblk m c 7 t : Vec Ideal S256x256 .f32) = V m c main_v8 := by
  obtain ⟨h3a, h3b, h4a, h5a, h5b, h6a, h7a, h7b, h8a, h9a, h9b, h10a, h11a, h11b, h12a, h13a, h13b, h14a⟩ := idx_whole t
  funext y
  show V m c main_v8 (((cfg0.win 7).blk t).view.emb y) = V m c main_v8 y
  refine congrArg (V m c main_v8) (funext fun a => Fin.ext ?_)
  match a with
  | ⟨0, _⟩ => show win0_7.index t (0 : Fin 2) * 256 + 1 * (y 0).val = (y 0).val; omega
  | ⟨1, _⟩ => show win0_7.index t (1 : Fin 2) * 256 + 1 * (y 1).val = (y 1).val; omega

theorem whole8 (c : Dev nD) (t : Fin cfg0.N) : (iblk m c 8 t : Vec Ideal S256 .f32) = V m c main_arg9 := by
  obtain ⟨h3a, h3b, h4a, h5a, h5b, h6a, h7a, h7b, h8a, h9a, h9b, h10a, h11a, h11b, h12a, h13a, h13b, h14a⟩ := idx_whole t
  funext y
  show V m c main_arg9 (((cfg0.win 8).blk t).view.emb y) = V m c main_arg9 y
  refine congrArg (V m c main_arg9) (funext fun a => Fin.ext ?_)
  match a with
  | ⟨0, _⟩ => show win0_8.index t (0 : Fin 1) * 256 + 1 * (y 0).val = (y 0).val; omega

theorem whole9 (c : Dev nD) (t : Fin cfg0.N) : (iblk m c 9 t : Vec Ideal S1x768 .f32) = V m c main_arg10 := by
  obtain ⟨h3a, h3b, h4a, h5a, h5b, h6a, h7a, h7b, h8a, h9a, h9b, h10a, h11a, h11b, h12a, h13a, h13b, h14a⟩ := idx_whole t
  funext y
  show V m c main_arg10 (((cfg0.win 9).blk t).view.emb y) = V m c main_arg10 y
  refine congrArg (V m c main_arg10) (funext fun a => Fin.ext ?_)
  match a with
  | ⟨0, _⟩ => show win0_9.index t (0 : Fin 2) * 1 + 1 * (y 0).val = (y 0).val; omega
  | ⟨1, _⟩ => show win0_9.index t (1 : Fin 2) * 768 + 1 * (y 1).val = (y 1).val; omega

theorem whole10 (c : Dev nD) (t : Fin cfg0.N) : (iblk m c 10 t : Vec Ideal S1 .f32) = V m c main_arg11 := by
  obtain ⟨h3a, h3b, h4a, h5a, h5b, h6a, h7a, h7b, h8a, h9a, h9b, h10a, h11a, h11b, h12a, h13a, h13b, h14a⟩ := idx_whole t
  funext y
  show V m c main_arg11 (((cfg0.win 10).blk t).view.emb y) = V m c main_arg11 y
  refine congrArg (V m c main_arg11) (funext fun a => Fin.ext ?_)
  match a with
  | ⟨0, _⟩ => show win0_10.index t (0 : Fin 1) * 1 + 1 * (y 0).val = (y 0).val; omega

theorem whole11 (c : Dev nD) (t : Fin cfg0.N) : (iblk m c 11 t : Vec Ideal S1x768 .f32) = V m c main_arg12 := by
  obtain ⟨h3a, h3b, h4a, h5a, h5b, h6a, h7a, h7b, h8a, h9a, h9b, h10a, h11a, h11b, h12a, h13a, h13b, h14a⟩ := idx_whole t
  funext y
  show V m c main_arg12 (((cfg0.win 11).blk t).view.emb y) = V m c main_arg12 y
  refine congrArg (V m c main_arg12) (funext fun a => Fin.ext ?_)
  match a with
  | ⟨0, _⟩ => show win0_11.index t (0 : Fin 2) * 1 + 1 * (y 0).val = (y 0).val; omega
  | ⟨1, _⟩ => show win0_11.index t (1 : Fin 2) * 768 + 1 * (y 1).val = (y 1).val; omega

theorem whole12 (c : Dev nD) (t : Fin cfg0.N) : (iblk m c 12 t : Vec Ideal S1 .f32) = V m c main_arg13 := by
  obtain ⟨h3a, h3b, h4a, h5a, h5b, h6a, h7a, h7b, h8a, h9a, h9b, h10a, h11a, h11b, h12a, h13a, h13b, h14a⟩ := idx_whole t
  funext y
  show V m c main_arg13 (((cfg0.win 12).blk t).view.emb y) = V m c main_arg13 y
  refine congrArg (V m c main_arg13) (funext fun a => Fin.ext ?_)
  match a with
  | ⟨0, _⟩ => show win0_12.index t (0 : Fin 1) * 1 + 1 * (y 0).val = (y 0).val; omega

theorem whole13 (c : Dev nD) (t : Fin cfg0.N) : (iblk m c 13 t : Vec Ideal S1x768 .f32) = V m c main_arg14 := by
  obtain ⟨h3a, h3b, h4a, h5a, h5b, h6a, h7a, h7b, h8a, h9a, h9b, h10a, h11a, h11b, h12a, h13a, h13b, h14a⟩ := idx_whole t
  funext y
  show V m c main_arg14 (((cfg0.win 13).blk t).view.emb y) = V m c main_arg14 y
  refine congrArg (V m c main_arg14) (funext fun a => Fin.ext ?_)
  match a with
  | ⟨0, _⟩ => show win0_13.index t (0 : Fin 2) * 1 + 1 * (y 0).val = (y 0).val; omega
  | ⟨1, _⟩ => show win0_13.index t (1 : Fin 2) * 768 + 1 * (y 1).val = (y 1).val; omega

theorem whole14 (c : Dev nD) (t : Fin cfg0.N) : (iblk m c 14 t : Vec Ideal S1 .f32) = V m c main_arg15 := by
  obtain ⟨h3a, h3b, h4a, h5a, h5b, h6a, h7a, h7b, h8a, h9a, h9b, h10a, h11a, h11b, h12a, h13a, h13b, h14a⟩ := idx_whole t
  funext y
  show V m c main_arg15 (((cfg0.win 14).blk t).view.emb y) = V m c main_arg15 y
  refine congrArg (V m c main_arg15) (funext fun a => Fin.ext ?_)
  match a with
  | ⟨0, _⟩ => show win0_14.index t (0 : Fin 1) * 1 + 1 * (y 0).val = (y 0).val; omega

/-! ## The result array -/

/-- The weights as the region finds them. -/
def weights (c : Dev nD) : Weights :=
  weightsOf (V m c main_v6) (V m c main_arg5) (V m c main_v7) (V m c main_arg7) (V m c main_v8) (V m c main_arg9)
    (V m c main_arg10) (V m c main_arg11) (V m c main_arg12) (V m c main_arg13) (V m c main_arg14) (V m c main_arg15)

/-- The whole-array function of the arrays as the region finds them. -/
def result (c : Dev nD) : S131072x768.Idx → EReal :=
  rows (weights m c) (V m c main_v1 : S131072x256.Idx → EReal) (V m c main_v3) (V m c main_v5)

/-- What point t writes back is block t of the whole-array function. -/
theorem flushed_eq (c : Dev nD) (t : Fin cfg0.N) :
    (dats m 0 c).flushed 15 t = ((cfg0.win 15).blk t).view.read (Elt Ideal) (result m c) := by
  rw [Cert.KernelIdeal.Value.flushed15]
  funext y
  show out0_15 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) y
    = result m c (((cfg0.win 15).blk t).view.emb y)
  rw [block_eq, whole3 m c t, whole4 m c t, whole5 m c t, whole6 m c t, whole7 m c t, whole8 m c t, whole9 m c t, whole10 m c t,
    whole11 m c t, whole12 m c t, whole13 m c t, whole14 m c t]
  obtain ⟨e0a, e0b, e1a, e1b, e2a, e2b, e15b, e15a⟩ := idx_facts t
  obtain ⟨r, j, rfl⟩ : ∃ (r : Fin 1024) (j : Fin 768), y = ix2 r j := ⟨y 0, y 1, eq_ix2 y⟩
  have hp : win0_15.index t (0 : Fin 2) * 1024 + r.val < 131072 := by have := r.isLt; omega
  unfold result
  rw [rows_at _ _ _ _ (ix2 r j) r j rfl rfl,
    rows_at (weights m c) _ _ _ (((cfg0.win 15).blk t).view.emb (ix2 r j)) ⟨win0_15.index t (0 : Fin 2) * 1024 + r.val, hp⟩ j
      (by show win0_15.index t (0 : Fin 2) * 1024 + 1 * r.val = win0_15.index t (0 : Fin 2) * 1024 + r.val; omega)
      (by show win0_15.index t (1 : Fin 2) * 768 + 1 * j.val = j.val; omega)]
  have h0 : (fun k => iblk m c 0 t (ix2 r k)) = fun k => (V m c main_v1 : S131072x256.Idx → EReal) (ix2 ⟨win0_15.index t (0 : Fin 2) * 1024 + r.val, hp⟩ k) :=
    funext fun k => (rows0 m c t r k).trans (at2_of_lt (α := EReal) (a := 131072) (b := 256) (V m c main_v1) hp k.isLt)
  have h1 : (fun k => iblk m c 1 t (ix2 r k)) = fun k => (V m c main_v3 : S131072x256.Idx → EReal) (ix2 ⟨win0_15.index t (0 : Fin 2) * 1024 + r.val, hp⟩ k) :=
    funext fun k => (rows1 m c t r k).trans (at2_of_lt (α := EReal) (a := 131072) (b := 256) (V m c main_v3) hp k.isLt)
  have h2 : (fun k => iblk m c 2 t (ix2 r k)) = fun k => (V m c main_v5 : S131072x256.Idx → EReal) (ix2 ⟨win0_15.index t (0 : Fin 2) * 1024 + r.val, hp⟩ k) :=
    funext fun k => (rows2 m c t r k).trans (at2_of_lt (α := EReal) (a := 131072) (b := 256) (V m c main_v5) hp k.isLt)
  rw [h0, h1, h2]
  rfl

/-- An index of the result is in point t's block iff each coordinate is in the block's range. -/
theorem mem_blk (t : Fin cfg0.N) (i : S131072x768.Idx) :
    i ∈ ((cfg0.win 15).blk t).view.set ↔ ∀ a : Fin 2, win0_15.index t a * S1024x768.size a ≤ (i a).val
      ∧ (i a).val < win0_15.index t a * S1024x768.size a + S1024x768.size a := by
  show i ∈ ((View.whole main_v9).slice (win0_15.rect t)).set ↔ _
  rw [View.set_slice_whole, Rect.mem_set_unit]
  exact Iff.rfl

/-- The 128 row blocks tile the result: row p is in the block of the point whose row block is p / 1024. -/
theorem cover (i : S131072x768.Idx) :
    ∃ t : Fin cfg0.N, (cfg0.win 15).flush t = true ∧ i ∈ ((cfg0.win 15).blk t).view.set := by
  have hi0 : (i 0).val < 131072 := (i 0).isLt
  have hi1 : (i 1).val < 768 := (i 1).isLt
  obtain ⟨t, ht⟩ := idx_onto ⟨(i 0).val / 1024, by omega⟩
  have q0 : win0_15.index t (0 : Fin 2) = (i 0).val / 1024 := congrFun ht 0
  have q1 : win0_15.index t (1 : Fin 2) = 0 := congrFun ht 1
  refine ⟨t, flush0_15 t, ?_⟩
  rw [mem_blk]
  intro a
  match a with
  | ⟨0, _⟩ => show win0_15.index t (0 : Fin 2) * 1024 ≤ (i 0).val ∧ (i 0).val < win0_15.index t (0 : Fin 2) * 1024 + 1024; omega
  | ⟨1, _⟩ => show win0_15.index t (1 : Fin 2) * 768 ≤ (i 1).val ∧ (i 1).val < win0_15.index t (1 : Fin 2) * 768 + 768; omega

/-- After the run the result array is the whole-array function. -/
theorem final (c : Dev nD) : (dats m 0 c).arrAt 15 cfg0.N = result m c :=
  (dats m 0 c).arrAt_eq_of_cover 15 (result m c) (fun t _ => flushed_eq m c t) cover

end Cert.KernelIdeal.Whole

end
-- ==== Proof.KernelRun.lean ====
/-
  The kernel's run with its result named as a function of the arguments. Before the region the host transposes each
  of the three inputs to dialogue-major order and flattens it to 131072 rows, and transposes the three weight matrices;
  the region then finds those arrays, and its result is the whole-array row function of them.
-/
import proofs.«100944_j28097676051279_2_alg».proof.Proof.KernelArray
import Idealize.ShloMosaic.Lib.StableHlo.Run

noncomputable section

namespace Cert.KernelIdeal.Whole

open Cert.KernelIdeal Cert.KernelIdeal.Gen Cert.KernelIdeal.Rows Idealize.ShloMosaic Idealize.ShloMosaic.TcCoe Idealize.SL.Sem
open Idealize.ShloMosaic.ValueIdx Cert.GatedRows

variable (m : (ℓ : Loc nD τ sig) → Buf (Elt Ideal) ℓ) (ρ : Dev nD → PrngReg)

/-- A modality's input in dialogue-major order, flattened to rows. -/
def flat (x : Vec Ideal S1024x128x256 .f32) : S131072x256.Idx → EReal :=
  shapeCast S131072x256 (transpose S128x1024x256 [1, 0, 2] x transposes_S1024x128x256_S128x1024x256_1_0_2)
    shapeCasts_S128x1024x256_S131072x256

/-- A weight matrix transposed. -/
def tr (x : Vec Ideal S256x256 .f32) : S256x256.Idx → EReal := transpose S256x256 [1, 0] x transposes_S256x256_S256x256_1_0

theorem V_v1 (c : Dev nD) : (V m c main_v1 : S131072x256.Idx → EReal) = flat (m ((c : Thread nD τ).loc main_arg0)) := by
  dsimp only [Gen.V, Gen.hostOps0]; after_results; rfl
theorem V_v3 (c : Dev nD) : (V m c main_v3 : S131072x256.Idx → EReal) = flat (m ((c : Thread nD τ).loc main_arg1)) := by
  dsimp only [Gen.V, Gen.hostOps0]; after_results; rfl
theorem V_v5 (c : Dev nD) : (V m c main_v5 : S131072x256.Idx → EReal) = flat (m ((c : Thread nD τ).loc main_arg2)) := by
  dsimp only [Gen.V, Gen.hostOps0]; after_results; rfl
theorem V_v6 (c : Dev nD) : (V m c main_v6 : S256x256.Idx → EReal) = tr (m ((c : Thread nD τ).loc main_arg4)) := by
  dsimp only [Gen.V, Gen.hostOps0]; after_results; rfl
theorem V_v7 (c : Dev nD) : (V m c main_v7 : S256x256.Idx → EReal) = tr (m ((c : Thread nD τ).loc main_arg6)) := by
  dsimp only [Gen.V, Gen.hostOps0]; after_results; rfl
theorem V_v8 (c : Dev nD) : (V m c main_v8 : S256x256.Idx → EReal) = tr (m ((c : Thread nD τ).loc main_arg8)) := by
  dsimp only [Gen.V, Gen.hostOps0]; after_results; rfl

/-- The result as a function of the arguments. -/
def resultOf (c : Dev nD) : S131072x768.Idx → EReal :=
  rows (weightsOf (tr (m ((c : Thread nD τ).loc main_arg4))) (m ((c : Thread nD τ).loc main_arg5))
      (tr (m ((c : Thread nD τ).loc main_arg6))) (m ((c : Thread nD τ).loc main_arg7))
      (tr (m ((c : Thread nD τ).loc main_arg8))) (m ((c : Thread nD τ).loc main_arg9))
      (m ((c : Thread nD τ).loc main_arg10)) (m ((c : Thread nD τ).loc main_arg11))
      (m ((c : Thread nD τ).loc main_arg12)) (m ((c : Thread nD τ).loc main_arg13))
      (m ((c : Thread nD τ).loc main_arg14)) (m ((c : Thread nD τ).loc main_arg15)))
    (flat (m ((c : Thread nD τ).loc main_arg0))) (flat (m ((c : Thread nD τ).loc main_arg1))) (flat (m ((c : Thread nD τ).loc main_arg2)))

theorem result_eq (c : Dev nD) : result m c = resultOf m c := by
  unfold result resultOf weights
  rw [V_v1, V_v3, V_v5, V_v6, V_v7, V_v8, V_main_arg5, V_main_arg7, V_main_arg9, V_main_arg10, V_main_arg11, V_main_arg12,
    V_main_arg13, V_main_arg14, V_main_arg15]

/-- Every weakly fair execution of the kernel's program ends with the result array at the row function of the
    arguments, the arguments unchanged. -/
theorem run : θ_run defs (onTc (τ := τ) (main (F := Ideal))) ⟨m, fun _ => 0, ρ⟩ fun r => ∀ c : Dev nD,
      r.2.mem ((c : Thread nD τ).loc main_v9) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans ((final m c).trans (result_eq m c)), (h c).2⟩)
    (Cert.KernelIdeal.Value.run_blocks m ρ)

end Cert.KernelIdeal.Whole

end
-- ==== Proof.LibJoin3Cols.lean ====
/-
  Three matrices of one shape laid side by side, read at an entry. If x, y and z are n × a, their concatenation along
  the column axis is n × c (the shape record's side condition makes c = 3a); its entry (p, k) is x (p, q) when k = q,
  y (p, q) when k = a + q and z (p, q) when k = 2a + q, for a column q of the pieces.
-/
import Idealize.ShloMosaic.Lib.ValueIdx
import Idealize.ShloMosaic.Lib.Pipeline.Value

noncomputable section

namespace Cert.Lib.Join3Cols

open Idealize.ShloMosaic Idealize.ShloMosaic.ValueIdx

variable {α : Type} {n a c : Nat}

/-- A column inside the first matrix reads the first matrix there. -/
theorem concat3_first (x y z : (⟨2, ![n, a]⟩ : Shape).Idx → α)
    (h : Shape.Concatenates [(⟨2, ![n, a]⟩ : Shape), ⟨2, ![n, a]⟩, ⟨2, ![n, a]⟩] ⟨2, ![n, c]⟩ (1 : Fin 2))
    (p : Fin n) (k : Fin c) (q : Fin a) (hk : k.val = q.val) :
    concatenate (⟨2, ![n, c]⟩ : Shape) (1 : Fin 2) [⟨⟨2, ![n, a]⟩, x⟩, ⟨⟨2, ![n, a]⟩, y⟩, ⟨⟨2, ![n, a]⟩, z⟩] h (ix2 p k)
      = x (ix2 p q) :=
  concatenate_apply_piece (t := (⟨2, ![n, c]⟩ : Shape)) (1 : Fin 2) [⟨⟨2, ![n, a]⟩, x⟩, ⟨⟨2, ![n, a]⟩, y⟩, ⟨⟨2, ![n, a]⟩, z⟩] h (ix2 p k) 0 (by show 0 < 3; omega) ⟨2, ![n, a]⟩ x rfl rfl 0 rfl (ix2 p q)
    (fun d hd => by
      match d with
      | ⟨0, _⟩ => rfl
      | ⟨1, _⟩ => exact absurd rfl hd)
    (by show 0 + q.val = k.val; omega)

/-- A column inside the second matrix reads the second matrix, one width less. -/
theorem concat3_second (x y z : (⟨2, ![n, a]⟩ : Shape).Idx → α)
    (h : Shape.Concatenates [(⟨2, ![n, a]⟩ : Shape), ⟨2, ![n, a]⟩, ⟨2, ![n, a]⟩] ⟨2, ![n, c]⟩ (1 : Fin 2))
    (p : Fin n) (k : Fin c) (q : Fin a) (hk : k.val = a + q.val) :
    concatenate (⟨2, ![n, c]⟩ : Shape) (1 : Fin 2) [⟨⟨2, ![n, a]⟩, x⟩, ⟨⟨2, ![n, a]⟩, y⟩, ⟨⟨2, ![n, a]⟩, z⟩] h (ix2 p k)
      = y (ix2 p q) :=
  concatenate_apply_piece (t := (⟨2, ![n, c]⟩ : Shape)) (1 : Fin 2) [⟨⟨2, ![n, a]⟩, x⟩, ⟨⟨2, ![n, a]⟩, y⟩, ⟨⟨2, ![n, a]⟩, z⟩] h (ix2 p k) 1 (by show 1 < 3; omega) ⟨2, ![n, a]⟩ y rfl rfl a (by simp) (ix2 p q)
    (fun d hd => by
      match d with
      | ⟨0, _⟩ => rfl
      | ⟨1, _⟩ => exact absurd rfl hd)
    (by show a + q.val = k.val; omega)

/-- A column inside the third matrix reads the third matrix, two widths less. -/
theorem concat3_third (x y z : (⟨2, ![n, a]⟩ : Shape).Idx → α)
    (h : Shape.Concatenates [(⟨2, ![n, a]⟩ : Shape), ⟨2, ![n, a]⟩, ⟨2, ![n, a]⟩] ⟨2, ![n, c]⟩ (1 : Fin 2))
    (p : Fin n) (k : Fin c) (q : Fin a) (hk : k.val = a + a + q.val) :
    concatenate (⟨2, ![n, c]⟩ : Shape) (1 : Fin 2) [⟨⟨2, ![n, a]⟩, x⟩, ⟨⟨2, ![n, a]⟩, y⟩, ⟨⟨2, ![n, a]⟩, z⟩] h (ix2 p k)
      = z (ix2 p q) :=
  concatenate_apply_piece (t := (⟨2, ![n, c]⟩ : Shape)) (1 : Fin 2) [⟨⟨2, ![n, a]⟩, x⟩, ⟨⟨2, ![n, a]⟩, y⟩, ⟨⟨2, ![n, a]⟩, z⟩] h (ix2 p k) 2 (by show 2 < 3; omega) ⟨2, ![n, a]⟩ z rfl rfl (a + a) (by simp) (ix2 p q)
    (fun d hd => by
      match d with
      | ⟨0, _⟩ => rfl
      | ⟨1, _⟩ => exact absurd rfl hd)
    (by show a + a + q.val = k.val; omega)

end Cert.Lib.Join3Cols

end
-- ==== Proof.LibColumnBroadcast.lean ====
/-
  A column repeated along its rows by the host's broadcast_in_dim, read at an entry: an [a, 1] column laid out as an
  [a, b] matrix along both axes reads, at (p, c), the column's row p.
-/
import Idealize.ShloMosaic.Lib.ValueIdx
import Idealize.ShloMosaic.Lib.Pipeline.Value

noncomputable section

namespace Cert.Lib.ColumnBroadcast

open Idealize.ShloMosaic Idealize.ShloMosaic.ValueIdx

variable {α : Type}

/-- An [a, 1] column broadcast to [a, b] along both axes reads, at (p, c), the operand's row p. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnBroadcast

end
-- ==== Proof.HostGate.lean ====
/-
  The pieces of the gated fusion as the host computes them on an array of m rows, each read at an entry.

  A dense layer with tanh: the dot_general of the array with the weight matrix, the bias laid out over the rows by two
  broadcasts, added, tanh. The gate: the two arrays and their entrywise product laid side by side (m × 768), the
  dot_general with the transposed weight row (768 × 1), the bias, and then 1 / (1 + exp (−·)) spelt with negate,
  exponential, add and divide — which is the logistic function on every extended real. The 768-long sum is the sum of
  its three thirds, and each third reads one of the three joined arrays. The mix: the gate's column repeated along the
  rows times one dense output, plus one minus it times the other.
-/
import Idealize.ShloMosaic.Lib.ValueIdx
import Idealize.ShloMosaic.Lib.ValueLayout
import Idealize.ShloMosaic.Lib.Pipeline.Value
import Idealize.ShloMosaic.PureOps.Ideal.Laws
import proofs.«100944_j28097676051279_2_alg».proof.Proof.GatedRows
import proofs.«100944_j28097676051279_2_alg».proof.Proof.LibDenseLayer
import proofs.«100944_j28097676051279_2_alg».proof.Proof.LibJoin3Cols
import proofs.«100944_j28097676051279_2_alg».proof.Proof.LibColumnBroadcast

noncomputable section

namespace Cert.HostGate

open Idealize.ShloMosaic Idealize.ShloMosaic.TcCoe Idealize.SL.Sem Idealize.ShloMosaic.ValueIdx Cert.GatedRows

/-- The word 0x3F800000 is the number one. -/
theorem one_word : Ideal.ofBits .f32 0x3F800000#32 = (1 : EReal) := by
  simp [Ideal.ofBits, Ideal.ieee, -EReal.coe_mul]; norm_num

variable {m : Nat}

/-- The dense layer with tanh at entry (p, q): tanh (Σₖ X(p, k)·W(k, q) + b(q)). -/
theorem dense_entry {D : DotDims ⟨2, ![m, 256]⟩ ⟨2, ![256, 256]⟩ ⟨2, ![m, 256]⟩} (hD : Cert.Lib.DenseLayer.IsMatProduct D)
    (X : FVec Ideal ⟨2, ![m, 256]⟩ .f32) (W : FVec Ideal ⟨2, ![256, 256]⟩ .f32) (b : FVec Ideal ⟨1, ![256]⟩ .f32)
    (h₁ : (⟨1, ![256]⟩ : Shape).BroadcastsInDim ⟨2, ![1, 256]⟩ (![1] : Fin 1 → Fin 2))
    (h₂ : (⟨2, ![1, 256]⟩ : Shape).BroadcastsInDim ⟨2, ![m, 256]⟩ (![0, 1] : Fin 2 → Fin 2)) (p : Fin m) (q : Fin 256) :
    Host.tanh (addf (Host.dotGeneral (F := Ideal) D none X W)
        (broadcastInDim ⟨2, ![m, 256]⟩ ![0, 1] h₂ (broadcastInDim ⟨2, ![1, 256]⟩ ![1] h₁ b))) (ix2 p q)
      = dense (fun k => X (ix2 p k)) W b q :=
  congrArg Ideal.tanh (Cert.Lib.DenseLayer.host_dense_entry hD X W b h₁ h₂ p q)

/-- The gate's linear form at row p: the 768-long dot of the joined row with the weight row, plus the bias, is the
    three-sum form. -/
theorem logit_entry {D : DotDims ⟨2, ![m, 768]⟩ ⟨2, ![768, 1]⟩ ⟨2, ![m, 1]⟩} (hD : Cert.Lib.DenseLayer.IsMatProduct D)
    (X Y : FVec Ideal ⟨2, ![m, 256]⟩ .f32) (w : FVec Ideal ⟨2, ![1, 768]⟩ .f32) (b : FVec Ideal ⟨1, ![1]⟩ .f32)
    (hc : Shape.Concatenates [(⟨2, ![m, 256]⟩ : Shape), ⟨2, ![m, 256]⟩, ⟨2, ![m, 256]⟩] ⟨2, ![m, 768]⟩ (1 : Fin 2))
    (ht : (⟨2, ![1, 768]⟩ : Shape).Transposes [1, 0] ⟨2, ![768, 1]⟩)
    (h₁ : (⟨1, ![1]⟩ : Shape).BroadcastsInDim ⟨2, ![1, 1]⟩ (![1] : Fin 1 → Fin 2))
    (h₂ : (⟨2, ![1, 1]⟩ : Shape).BroadcastsInDim ⟨2, ![m, 1]⟩ (![0, 1] : Fin 2 → Fin 2)) (p : Fin m) :
    addf (Host.dotGeneral (F := Ideal) D none
          (concatenate (⟨2, ![m, 768]⟩ : Shape) (1 : Fin 2) [⟨⟨2, ![m, 256]⟩, X⟩, ⟨⟨2, ![m, 256]⟩, Y⟩, ⟨⟨2, ![m, 256]⟩, mulf X Y⟩] hc)
          (transpose ⟨2, ![768, 1]⟩ [1, 0] w ht))
        (broadcastInDim ⟨2, ![m, 1]⟩ ![0, 1] h₂ (broadcastInDim ⟨2, ![1, 1]⟩ ![1] h₁ b)) (ix2 p (0 : Fin 1))
      = logit (fun k => X (ix2 p k)) (fun k => Y (ix2 p k)) w b := by
  rw [Cert.Lib.DenseLayer.host_dense_entry hD _ _ b h₁ h₂ p (0 : Fin 1), sum_thirds]
  unfold logit
  refine congrArg₂ (· + ·) (congrArg₂ (· + ·) (congrArg₂ (· + ·) ?_ ?_) ?_) rfl
  · refine Finset.sum_congr rfl fun k _ => ?_
    rw [Cert.Lib.Join3Cols.concat3_first X Y (mulf X Y) hc p (lo k) k rfl, transpose_ix2_apply w ht (lo k) (0 : Fin 1)]
  · refine Finset.sum_congr rfl fun k _ => ?_
    rw [Cert.Lib.Join3Cols.concat3_second X Y (mulf X Y) hc p (mid k) k rfl, transpose_ix2_apply w ht (mid k) (0 : Fin 1)]
  · refine Finset.sum_congr rfl fun k _ => ?_
    rw [Cert.Lib.Join3Cols.concat3_third X Y (mulf X Y) hc p (hi k) k rfl, transpose_ix2_apply w ht (hi k) (0 : Fin 1)]
    rfl

/-- The host's negate, exponential, add one, divide into one of a column, at a row: the logistic of the entry. -/
theorem logistic_entry (L : FVec Ideal ⟨2, ![m, 1]⟩ .f32)
    (h₀ : (⟨0, ![]⟩ : Shape).BroadcastsInDim ⟨2, ![m, 1]⟩ (![] : Fin 0 → Fin 2)) (p : Fin m) (u : Fin 1) :
    Host.divf (broadcastInDim ⟨2, ![m, 1]⟩ ![] h₀ (constant (F := Ideal) ⟨0, ![]⟩ .f32 0x3F800000#32))
        (addf (broadcastInDim ⟨2, ![m, 1]⟩ ![] h₀ (constant (F := Ideal) ⟨0, ![]⟩ .f32 0x3F800000#32))
          (Host.exp (Host.negf L))) (ix2 p u)
      = Ideal.logistic (L (ix2 p u)) := by
  show Ideal.div (Ideal.ofBits .f32 0x3F800000#32) (Ideal.ofBits .f32 0x3F800000#32 + Ideal.exp (-(L (ix2 p u)))) = _
  rw [one_word]
  rfl

/-- The gated mix at entry (p, q): with z the gate's column at row p, z·H₁(p, q) + (1 − z)·H₂(p, q). -/
theorem mix_entry (Z : FVec Ideal ⟨2, ![m, 1]⟩ .f32) (H₁ H₂ : FVec Ideal ⟨2, ![m, 256]⟩ .f32)
    (hb : (⟨2, ![m, 1]⟩ : Shape).BroadcastsInDim ⟨2, ![m, 256]⟩ (![0, 1] : Fin 2 → Fin 2))
    (h₀ : (⟨0, ![]⟩ : Shape).BroadcastsInDim ⟨2, ![m, 1]⟩ (![] : Fin 0 → Fin 2)) (p : Fin m) (q : Fin 256) :
    addf (mulf (broadcastInDim ⟨2, ![m, 256]⟩ ![0, 1] hb Z) H₁)
        (mulf (broadcastInDim ⟨2, ![m, 256]⟩ ![0, 1] hb
          (subf (broadcastInDim ⟨2, ![m, 1]⟩ ![] h₀ (constant (F := Ideal) ⟨0, ![]⟩ .f32 0x3F800000#32)) Z)) H₂) (ix2 p q)
      = mix (Z (ix2 p (0 : Fin 1))) (H₁ (ix2 p q)) (H₂ (ix2 p q)) := by
  show broadcastInDim ⟨2, ![m, 256]⟩ ![0, 1] hb Z (ix2 p q) * H₁ (ix2 p q)
      + broadcastInDim ⟨2, ![m, 256]⟩ ![0, 1] hb
          (subf (broadcastInDim ⟨2, ![m, 1]⟩ ![] h₀ (constant (F := Ideal) ⟨0, ![]⟩ .f32 0x3F800000#32)) Z) (ix2 p q) * H₂ (ix2 p q) = _
  rw [Cert.Lib.ColumnBroadcast.broadcastInDim_a1_ab_apply, Cert.Lib.ColumnBroadcast.broadcastInDim_a1_ab_apply]
  rfl

end Cert.HostGate

end
-- ==== Proof.RefRows.lean ====
/-
  The reference's result, read at an entry. Its three dense layers, its three gates (the joined row of 768 against the
  transposed weight row, then negate, exponential, add one, divide into one) and its three mixes are the row
  function's; the final side-by-side join puts the three pairs' mixes in the three thirds of the row.
-/
import proofs.«100944_j28097676051279_2_alg».proof.Proof.Gen.ReferenceIdeal.Read
import proofs.«100944_j28097676051279_2_alg».proof.Proof.GatedRows
import proofs.«100944_j28097676051279_2_alg».proof.Proof.HostGate

noncomputable section

namespace Cert.ReferenceIdeal.Rows

open Cert.ReferenceIdeal Cert.ReferenceIdeal.Gen Cert.ReferenceIdeal.Read Idealize.ShloMosaic Idealize.ShloMosaic.TcCoe Idealize.SL.Sem
open Idealize.ShloMosaic.ValueIdx Cert.GatedRows

/-- The reference's products of an array with a weight matrix, and of the joined array with a weight column, contract
    columns against rows. -/
theorem isMatProduct : Cert.Lib.DenseLayer.IsMatProduct dot_S131072x256_S256x256_S131072x256_1_0_0_1_n_n :=
  ⟨rfl, rfl, rfl, rfl, rfl, rfl⟩
theorem isMatProduct' : Cert.Lib.DenseLayer.IsMatProduct dot_S131072x768_S768x1_S131072x1_1_0_0_1_n_n :=
  ⟨rfl, rfl, rfl, rfl, rfl, rfl⟩

/-! ## The three dense layers -/

theorem dense_a (a : (⟨S1024x128x256, .f32⟩ : BufTy).Contents (Elt Ideal)) (Wa : (⟨S256x256, .f32⟩ : BufTy).Contents (Elt Ideal)) (ba : (⟨S256, .f32⟩ : BufTy).Contents (Elt Ideal))
    (p : Fin 131072) (q : Fin 256) :
    val_main_v11 (F := Ideal) a Wa ba (ix2 p q) = dense (fun k => val_main_v1 (F := Ideal) a (ix2 p k)) (val_main_v6 (F := Ideal) Wa) ba q := by
  unfold val_main_v11 val_main_v10 val_main_v9 val_main_v8 val_main_v7
  exact Cert.HostGate.dense_entry isMatProduct _ _ ba _ _ p q

theorem dense_v (v : (⟨S1024x128x256, .f32⟩ : BufTy).Contents (Elt Ideal)) (Wv : (⟨S256x256, .f32⟩ : BufTy).Contents (Elt Ideal)) (bv : (⟨S256, .f32⟩ : BufTy).Contents (Elt Ideal))
    (p : Fin 131072) (q : Fin 256) :
    val_main_v17 (F := Ideal) v Wv bv (ix2 p q) = dense (fun k => val_main_v3 (F := Ideal) v (ix2 p k)) (val_main_v12 (F := Ideal) Wv) bv q := by
  unfold val_main_v17 val_main_v16 val_main_v15 val_main_v14 val_main_v13
  exact Cert.HostGate.dense_entry isMatProduct _ _ bv _ _ p q

theorem dense_l (l : (⟨S1024x128x256, .f32⟩ : BufTy).Contents (Elt Ideal)) (Wl : (⟨S256x256, .f32⟩ : BufTy).Contents (Elt Ideal)) (bl : (⟨S256, .f32⟩ : BufTy).Contents (Elt Ideal))
    (p : Fin 131072) (q : Fin 256) :
    val_main_v23 (F := Ideal) l Wl bl (ix2 p q) = dense (fun k => val_main_v5 (F := Ideal) l (ix2 p k)) (val_main_v18 (F := Ideal) Wl) bl q := by
  unfold val_main_v23 val_main_v22 val_main_v21 val_main_v20 val_main_v19
  exact Cert.HostGate.dense_entry isMatProduct _ _ bl _ _ p q

/-! ## The three gates -/

theorem gate_av (a v : (⟨S1024x128x256, .f32⟩ : BufTy).Contents (Elt Ideal)) (wav : (⟨S1x768, .f32⟩ : BufTy).Contents (Elt Ideal)) (bav : (⟨S1, .f32⟩ : BufTy).Contents (Elt Ideal))
    (p : Fin 131072) :
    val_main_v36 (F := Ideal) a v wav bav (ix2 p (0 : Fin 1))
      = Ideal.logistic (logit (fun k => val_main_v1 (F := Ideal) a (ix2 p k)) (fun k => val_main_v3 (F := Ideal) v (ix2 p k)) wav bav) := by
  unfold val_main_v36 val_main_v35 val_main_cst_0 val_main_v34 val_main_v33 val_main_cst val_main_v32 val_main_v31
  refine (Cert.HostGate.logistic_entry (val_main_v30 (F := Ideal) a v wav bav) bcast_S_S131072x1 p (0 : Fin 1)).trans (congrArg Ideal.logistic ?_)
  unfold val_main_v30 val_main_v29 val_main_v28 val_main_v27 val_main_v26 val_main_v25 val_main_v24
  exact Cert.HostGate.logit_entry isMatProduct' (val_main_v1 (F := Ideal) a) (val_main_v3 (F := Ideal) v) wav bav _ _ _ _ p

theorem gate_al (a l : (⟨S1024x128x256, .f32⟩ : BufTy).Contents (Elt Ideal)) (wal : (⟨S1x768, .f32⟩ : BufTy).Contents (Elt Ideal)) (bal : (⟨S1, .f32⟩ : BufTy).Contents (Elt Ideal))
    (p : Fin 131072) :
    val_main_v56 (F := Ideal) a l wal bal (ix2 p (0 : Fin 1))
      = Ideal.logistic (logit (fun k => val_main_v1 (F := Ideal) a (ix2 p k)) (fun k => val_main_v5 (F := Ideal) l (ix2 p k)) wal bal) := by
  unfold val_main_v56 val_main_v55 val_main_cst_3 val_main_v54 val_main_v53 val_main_cst_2 val_main_v52 val_main_v51
  refine (Cert.HostGate.logistic_entry (val_main_v50 (F := Ideal) a l wal bal) bcast_S_S131072x1 p (0 : Fin 1)).trans (congrArg Ideal.logistic ?_)
  unfold val_main_v50 val_main_v49 val_main_v48 val_main_v47 val_main_v46 val_main_v45 val_main_v44
  exact Cert.HostGate.logit_entry isMatProduct' (val_main_v1 (F := Ideal) a) (val_main_v5 (F := Ideal) l) wal bal _ _ _ _ p

theorem gate_vl (v l : (⟨S1024x128x256, .f32⟩ : BufTy).Contents (Elt Ideal)) (wvl : (⟨S1x768, .f32⟩ : BufTy).Contents (Elt Ideal)) (bvl : (⟨S1, .f32⟩ : BufTy).Contents (Elt Ideal))
    (p : Fin 131072) :
    val_main_v76 (F := Ideal) v l wvl bvl (ix2 p (0 : Fin 1))
      = Ideal.logistic (logit (fun k => val_main_v3 (F := Ideal) v (ix2 p k)) (fun k => val_main_v5 (F := Ideal) l (ix2 p k)) wvl bvl) := by
  unfold val_main_v76 val_main_v75 val_main_cst_6 val_main_v74 val_main_v73 val_main_cst_5 val_main_v72 val_main_v71
  refine (Cert.HostGate.logistic_entry (val_main_v70 (F := Ideal) v l wvl bvl) bcast_S_S131072x1 p (0 : Fin 1)).trans (congrArg Ideal.logistic ?_)
  unfold val_main_v70 val_main_v69 val_main_v68 val_main_v67 val_main_v66 val_main_v65 val_main_v64
  exact Cert.HostGate.logit_entry isMatProduct' (val_main_v3 (F := Ideal) v) (val_main_v5 (F := Ideal) l) wvl bvl _ _ _ _ p

/-! ## The result -/

variable (a v l : (⟨S1024x128x256, .f32⟩ : BufTy).Contents (Elt Ideal))
  (Wa : (⟨S256x256, .f32⟩ : BufTy).Contents (Elt Ideal)) (ba : (⟨S256, .f32⟩ : BufTy).Contents (Elt Ideal))
  (Wv : (⟨S256x256, .f32⟩ : BufTy).Contents (Elt Ideal)) (bv : (⟨S256, .f32⟩ : BufTy).Contents (Elt Ideal))
  (Wl : (⟨S256x256, .f32⟩ : BufTy).Contents (Elt Ideal)) (bl : (⟨S256, .f32⟩ : BufTy).Contents (Elt Ideal))
  (wav : (⟨S1x768, .f32⟩ : BufTy).Contents (Elt Ideal)) (bav : (⟨S1, .f32⟩ : BufTy).Contents (Elt Ideal))
  (wal : (⟨S1x768, .f32⟩ : BufTy).Contents (Elt Ideal)) (bal : (⟨S1, .f32⟩ : BufTy).Contents (Elt Ideal))
  (wvl : (⟨S1x768, .f32⟩ : BufTy).Contents (Elt Ideal)) (bvl : (⟨S1, .f32⟩ : BufTy).Contents (Elt Ideal))

/-- The weights as the reference lays them out: each weight matrix transposed. -/
def weights : Weights :=
  ⟨val_main_v6 (F := Ideal) Wa, ba, val_main_v12 (F := Ideal) Wv, bv, val_main_v18 (F := Ideal) Wl, bl, wav, bav, wal, bal, wvl, bvl⟩

theorem mix_av (p : Fin 131072) (q : Fin 256) :
    val_main_v43 (F := Ideal) a v Wa ba Wv bv wav bav (ix2 p q)
      = pairAV (weights Wa ba Wv bv Wl bl wav bav wal bal wvl bvl) (fun k => val_main_v1 (F := Ideal) a (ix2 p k)) (fun k => val_main_v3 (F := Ideal) v (ix2 p k)) q := by
  unfold val_main_v43 val_main_v42 val_main_v41 val_main_v40 val_main_v39 val_main_cst_1 val_main_v38 val_main_v37
  refine (Cert.HostGate.mix_entry (val_main_v36 (F := Ideal) a v wav bav) (val_main_v11 (F := Ideal) a Wa ba) (val_main_v17 (F := Ideal) v Wv bv) _ _ p q).trans ?_
  rw [gate_av, dense_a, dense_v]
  rfl

theorem mix_al (p : Fin 131072) (q : Fin 256) :
    val_main_v63 (F := Ideal) a l Wa ba Wl bl wal bal (ix2 p q)
      = pairAL (weights Wa ba Wv bv Wl bl wav bav wal bal wvl bvl) (fun k => val_main_v1 (F := Ideal) a (ix2 p k)) (fun k => val_main_v5 (F := Ideal) l (ix2 p k)) q := by
  unfold val_main_v63 val_main_v62 val_main_v61 val_main_v60 val_main_v59 val_main_cst_4 val_main_v58 val_main_v57
  refine (Cert.HostGate.mix_entry (val_main_v56 (F := Ideal) a l wal bal) (val_main_v11 (F := Ideal) a Wa ba) (val_main_v23 (F := Ideal) l Wl bl) _ _ p q).trans ?_
  rw [gate_al, dense_a, dense_l]
  rfl

theorem mix_vl (p : Fin 131072) (q : Fin 256) :
    val_main_v83 (F := Ideal) v l Wv bv Wl bl wvl bvl (ix2 p q)
      = pairVL (weights Wa ba Wv bv Wl bl wav bav wal bal wvl bvl) (fun k => val_main_v3 (F := Ideal) v (ix2 p k)) (fun k => val_main_v5 (F := Ideal) l (ix2 p k)) q := by
  unfold val_main_v83 val_main_v82 val_main_v81 val_main_v80 val_main_v79 val_main_cst_7 val_main_v78 val_main_v77
  refine (Cert.HostGate.mix_entry (val_main_v76 (F := Ideal) v l wvl bvl) (val_main_v17 (F := Ideal) v Wv bv) (val_main_v23 (F := Ideal) l Wl bl) _ _ p q).trans ?_
  rw [gate_vl, dense_v, dense_l]
  rfl

/-- The reference's result is the whole-array row function of the transposed-and-flattened inputs. -/
theorem result_eq :
    val_main_v84 (F := Ideal) a v l Wa ba Wv bv Wl bl wav bav wal bal wvl bvl
      = rows (weights Wa ba Wv bv Wl bl wav bav wal bal wvl bvl) (val_main_v1 (F := Ideal) a) (val_main_v3 (F := Ideal) v) (val_main_v5 (F := Ideal) l) := by
  funext i
  obtain ⟨p, j, rfl⟩ : ∃ (p : Fin 131072) (j : Fin 768), i = ix2 p j := ⟨i 0, i 1, eq_ix2 i⟩
  rw [rows_at _ _ _ _ (ix2 p j) p j rfl rfl]
  unfold val_main_v84
  rcases thirds j with ⟨q, rfl⟩ | ⟨q, rfl⟩ | ⟨q, rfl⟩
  · rw [row_lo, Cert.Lib.Join3Cols.concat3_first _ _ _ _ p (lo q) q rfl]
    exact mix_av a v Wa ba Wv bv Wl bl wav bav wal bal wvl bvl p q
  · rw [row_mid, Cert.Lib.Join3Cols.concat3_second _ _ _ _ p (mid q) q rfl]
    exact mix_al a l Wa ba Wv bv Wl bl wav bav wal bal wvl bvl p q
  · rw [row_hi, Cert.Lib.Join3Cols.concat3_third _ _ _ _ p (hi q) q rfl]
    exact mix_vl v l Wa ba Wv bv Wl bl wav bav wal bal wvl bvl p q

end Cert.ReferenceIdeal.Rows

end
-- ==== Proof.lean ====
/-
  Pairwise gated fusion of three modalities: a tiled TensorCore kernel against its plain reference, at exact arithmetic.

  Both programs first transpose each of the three inputs (a, v, l : 1024 × 128 × 256) to dialogue-major order and
  flatten it to 131072 rows of 256 features, and transpose the three 256 × 256 weight matrices. Row p of the
  131072 × 768 result then depends only on row p of the three flattened inputs:

    h_x = tanh (x · Wₓᵀ + bₓ)                         for each modality x,
    z_xy = logistic (x · w₁ + y · w₂ + (x ∘ y) · w₃ + b)  for each pair (x, y), with (w₁ | w₂ | w₃) the pair's weight row,
    out = ( z_av h_a + (1 − z_av) h_v | z_al h_a + (1 − z_al) h_l | z_vl h_v + (1 − z_vl) h_l ).

  The kernel computes 1024 rows per grid point: three matrix products into zero accumulators, the gates' linear forms
  as three lane sums each, the logistic as one operation, and three slab stores; its 128 row blocks tile the result.
  The reference computes all rows at once: three dot_generals, each gate's linear form as ONE dot of the joined row
  (x | y | x ∘ y) of 768 entries with the transposed weight row, the logistic spelt as 1 / (1 + exp (−·)), and a final
  side-by-side join. The two agree on every extended real: a sum of 768 terms is the sum of its three thirds (no
  cancellation is used, so the inputs' finiteness is never needed), 1 / (1 + exp (−t)) is the logistic function by
  definition there, and a change of float format is the identity.

  The kernel's idealization rewrote nothing, so its agreement with the printed kernel is the trivial statement. The
  three programs' termination, fault-freedom and unchanged arguments are the generated frame runs (for the reference,
  its generated run with the result dropped).
-/
import proofs.«100944_j28097676051279_2_alg».proof.Defs
import proofs.«100944_j28097676051279_2_alg».proof.Proof.Gen.Kernel
import proofs.«100944_j28097676051279_2_alg».proof.Proof.Gen.Kernel.Skeleton
import proofs.«100944_j28097676051279_2_alg».proof.Proof.Gen.Kernel.Launch
import proofs.«100944_j28097676051279_2_alg».proof.Proof.Gen.Kernel.Points
import proofs.«100944_j28097676051279_2_alg».proof.Proof.Gen.Kernel.Frame
import proofs.«100944_j28097676051279_2_alg».proof.Proof.Gen.KernelIdeal
import proofs.«100944_j28097676051279_2_alg».proof.Proof.Gen.KernelIdeal.Skeleton
import proofs.«100944_j28097676051279_2_alg».proof.Proof.Gen.KernelIdeal.Launch
import proofs.«100944_j28097676051279_2_alg».proof.Proof.Gen.KernelIdeal.Points
import proofs.«100944_j28097676051279_2_alg».proof.Proof.Gen.KernelIdeal.Frame
import proofs.«100944_j28097676051279_2_alg».proof.Proof.Gen.ReferenceIdeal
import proofs.«100944_j28097676051279_2_alg».proof.Proof.Gen.Pre_finite_inputs
import proofs.«100944_j28097676051279_2_alg».proof.Proof.Gen.KernelIdeal.Value
import proofs.«100944_j28097676051279_2_alg».proof.Proof.Gen.ReferenceIdeal.Run
import proofs.«100944_j28097676051279_2_alg».proof.Proof.Gen.ReferenceIdeal.Read
import proofs.«100944_j28097676051279_2_alg».proof.Proof.KernelRun
import proofs.«100944_j28097676051279_2_alg».proof.Proof.RefRows
import Idealize.ShloMosaic.Adequacy
import Idealize.ShloMosaic.Init

noncomputable section

namespace Cert.Proof

open Idealize.ShloMosaic Idealize.SL.Sem

/-- Every weakly fair execution of the printed kernel terminates without a fault and leaves its arguments unchanged. -/
theorem frame_kernel : Cert.frame_Kernel :=
  fun m ρ _ => Cert.Kernel.Gen.frame m ρ

/-- The same for the idealized kernel. -/
theorem frame_kernelIdeal : Cert.frame_KernelIdeal :=
  fun m ρ _ => Cert.KernelIdeal.Gen.frame m ρ

/-- The same for the idealized reference: its run, with the result dropped. -/
theorem frame_referenceIdeal : Cert.frame_ReferenceIdeal :=
  fun m ρ _ => (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

/-- From memories agreeing on the arguments both idealized programs end with the result array at the same whole-array
    row function of the arguments. -/
theorem algebraic : Cert.algebraic_KernelIdeal_ReferenceIdeal := by
  intro m ρ m' ρ' _ hagree
  refine ⟨fun c => Cert.KernelIdeal.Whole.resultOf m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v84_eq, Cert.ReferenceIdeal.Rows.result_eq]
  obtain ⟨h0, h1, h2, -, h4, h5, h6, h7, h8, h9, h10, h11, h12, h13, h14, h15⟩ := hagree c
  rw [h0, h1, h2, h4, h5, h6, h7, h8, h9, h10, h11, h12, h13, h14, h15]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
